-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S2048x1024 : Shape := ⟨2, ![2048, 1024]⟩
abbrev S8192x2048 : Shape := ⟨2, ![8192, 2048]⟩
abbrev S1024x2048 : Shape := ⟨2, ![1024, 2048]⟩
abbrev S512x1024 : Shape := ⟨2, ![512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .bf16⟩
  | .hbm, ⟨5, _⟩ => ⟨S2048x1024, .f32⟩
  | .hbm, ⟨6, _⟩ => ⟨S2048x1024, .bf16⟩
  | .hbm, ⟨7, _⟩ => ⟨S1024x1024, .bf16⟩
  | .hbm, ⟨8, _⟩ => ⟨S8192x2048, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_24 : BitVec 32 := 0#32
  let v44 : BitVec 1 := Scalar.cmpi .ne v43 c0_i32_24
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  concatenates_S1024x1024_S1024x1024_S2048x1024_d0 : Shape.Concatenates [S1024x1024, S1024x1024] S2048x1024 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  slices_S8192x2048_S8192x1024_0_0 : S8192x2048.Slices ![0, 0] S8192x1024
  slices_S8192x2048_S8192x1024_0_1024 : S8192x2048.Slices ![0, 1024] S8192x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S1024x1024_S2048x1024_S1024x2048_1_1_0_0_n_n_wf : DotDims.WF S1024x1024 S2048x1024 S1024x2048 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .bf16 = 32 ∨ (Rect.block (s := S8192x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x1024.size a
  hwx1_4 : ∀ i : grid1.Coords, EltTy.bits .f32 = 32 ∨ (Rect.block (s := S8192x1024) S1024x1024.size (cc1_transform_4 i) (hinb1_4 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S8192x1024, .f32⟩
  | .hbm, ⟨28, _⟩ => ⟨S1024x1024, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Region0.lean ====
/- REGION 0 of the kernel program as printed: the projection call. At every one of its 8 grid points the body
   reads a 1024-row tile of the activations (window 0) and the whole stacked weight matrix (window 1, fetched
   once, kept in one buffer), multiplies the tile by the transposed weights into a zero accumulator, narrows the
   product and stores it over the whole 1024×2048 output tile (window 2).

   Everything is stated at a PARAMETER `V` — the core's buffer contents when the region is entered — and at any
   float instance `F`: each window's block at a point, what the body leaves in the output tile as a function of
   the two input blocks, the body's triple, the region's proof data and its body obligation. -/
import proofs.«159827_j24661702213738_2_alg».proof.Proof.Gen.Kernel.Launch
import proofs.«159827_j24661702213738_2_alg».proof.Proof.Gen.Kernel.Skeleton
import proofs.«159827_j24661702213738_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 2048 entries: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its row tile at every point, for ANY proof data whose array is `V`'s (`hA`) and
    whose body leaves the tile in place (`hafter`): the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds the whole stacked matrix at every point, fetched there (the first point) or not (every
    later one: its block index never moves, and the body leaves the buffer as it found it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read and written whole -/

abbrev r0_0 : Rect S1024x1024 := Rect.unit (s := S1024x1024) ![0, 0] S1024x1024.size inb_S1024x1024_S1024x1024_0_0
abbrev r0_1 : Rect S2048x1024 := Rect.unit (s := S2048x1024) ![0, 0] S2048x1024.size inb_S2048x1024_S2048x1024_0_0
abbrev r0_2 : Rect S1024x2048 := Rect.unit (s := S1024x2048) ![0, 0] S1024x2048.size inb_S1024x2048_S1024x2048_0_0

/-! ## What the body leaves in the output window's buffer -/

/-- The output tile after the body, from the two input blocks: its one store, of the narrowed product of the
    activations' tile with the transposed weights, over the whole tile. -/
def out0_2 (x0 : Vec F S1024x1024 .bf16) (x1 : Vec F S2048x1024 .bf16) : Vec F S1024x2048 .bf16 :=
  View.canon [⟨r0_2, k0_pay1 (View.ld x0 r0_0) (View.ld x1 r0_1)⟩]

/-- The one store is of the whole tile, so it covers it. -/
theorem cover0_2 (p0 : Vec F S1024x2048 .bf16) (y : S1024x2048.Idx) :
    ∃ pc ∈ ([⟨r0_2, p0⟩] : List (View.Piece (Elt F) S1024x2048 .bf16)), y ∈ pc.1.set :=
  View.cover_of_tiled [⟨r0_2, p0⟩] S1024x2048.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S1024x1024 .bf16) (harg1 : arg1.IsWhole)
    (arg2 : Memref sig .tc .vmem S2048x1024 .bf16) (harg2 : arg2.IsWhole) (arg3 : Memref sig .tc .vmem S1024x2048 .bf16) (harg3 : arg3.IsWhole)
    (x0 : Vec F S1024x1024 .bf16) (x1 : Vec F S2048x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_qk_kernel i arg1 harg1 arg2 harg2 arg3 harg3) K := by
  simp only [cc0__linear_qk_kernel_eq_skeleton]; unfold cc0__linear_qk_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them (`V`); after the body at point `t`
    each input's buffer at its block and the output's at `out0_2` of the two input blocks; the invariant "the scoped rest
    and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
import proofs.«159827_j24661702213738_2_alg».proof.Proof.Gen.Kernel.Launch
import proofs.«159827_j24661702213738_2_alg».proof.Proof.Gen.Kernel.Skeleton
import proofs.«159827_j24661702213738_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the second kernel call): what its three control cases share

The grid is 8 row tiles by 16 key/value tiles, walked row-major: point `t` is row tile `t / 16`, key tile `t % 16`.
The running maximum, the running denominator and the running numerator live in three scratch buffers that the
kernel keeps from one point to the next; they are reset at key tile 0 and read out at key tile 15. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, decided over the grid -/

/-- "This is the first key tile": the condition under which the three accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key tile": the condition under which the output tile is computed and stored. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile the output window is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The three accumulators: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- A scoped buffer the attention kernel never touches (a staging buffer of the projection call), at anything. -/
abbrev oth (c : Dev nD) (b : Ref sig .tc) : sProp 𝕄 :=
  iprop(∃ f : Buf (Elt F) ((c : Thread nD τ).loc b), ((c : Thread nD τ).loc b) ↦{fullShare} f)

/-- The region's resting invariant spelled out: the five untouched buffers, the three accumulators at some contents, and
    the generator register at some state. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg2_1
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

end Cert.Kernel.Hand

end
-- ==== Proof.K.Region1RunA.lean ====
import proofs.«159827_j24661702213738_2_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key tile that is not the last: the accumulators, whatever they held, are reset and then
    updated with this tile; the output tile is left as it was. The pieces each accumulator ends with are found by the run. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__kernel_eq_skeleton]; unfold cc1__kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Region1RunB.lean ====
import proofs.«159827_j24661702213738_2_alg».proof.Proof.K.Region1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a key tile that is neither the first nor the last: the accumulators, at what the point before left,
    are updated with this tile; the output tile is left as it was. -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__kernel_eq_skeleton]; unfold cc1__kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Region1RunC.lean ====
import proofs.«159827_j24661702213738_2_alg».proof.Proof.K.Region1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last key tile (which is not the first): the accumulators are updated with this tile, then the
    numerator is divided by the denominator, multiplied with the value weights and stored as the output tile. -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg2 harg2 arg3 harg3 arg4 harg4 arg5 harg5 arg6 harg6 arg7 harg7 arg8 harg8 arg9 harg9) K } := by
  refine ⟨?_, ?_, ?_, ?_, fun E K => ?run⟩
  case run =>
    simp only [cc1__kernel_eq_skeleton]; unfold cc1__kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Region1.lean ====
import proofs.«159827_j24661702213738_2_alg».proof.Proof.K.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what the accumulators and the output tile hold point by point, the proof data, the body obligation -/

/-- What case A leaves in the output tile's staging buffer (nothing is stored: a placeholder no one consults, the window being idle there). -/
def out1_A_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1024 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- In case A the stores into the running maximum cover it. -/
theorem scover1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in the running maximum. -/
def sout1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- In case A the stores into the running denominator cover it. -/
theorem scover1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in the running denominator. -/
def sout1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- In case A the stores into the running numerator cover it. -/
theorem scover1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) (y : S1024x1024.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x1024.size (by sl_kernel_rfl) y

/-- What case A leaves in the running numerator. -/
def sout1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What case B leaves in the output tile's staging buffer (nothing is stored: a placeholder no one consults, the window being idle there). -/
def out1_B_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- In case B the stores into the running maximum cover it. -/
theorem scover1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in the running maximum. -/
def sout1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- In case B the stores into the running denominator cover it. -/
theorem scover1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in the running denominator. -/
def sout1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- In case B the stores into the running numerator cover it. -/
theorem scover1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case B leaves in the running numerator. -/
def sout1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- In case C the stores into the output tile's staging buffer cover it. -/
theorem cover1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x1024.size (by sl_kernel_rfl) y

/-- What case C leaves in the output tile's staging buffer. -/
def out1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- In case C the stores into the running maximum cover it. -/
theorem scover1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in the running maximum. -/
def sout1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- In case C the stores into the running denominator cover it. -/
theorem scover1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in the running denominator. -/
def sout1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- In case C the stores into the running numerator cover it. -/
theorem scover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case C leaves in the running numerator. -/
def sout1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section Region1
variable (V : (c : Dev nD) → (b : Ref sig .tc) → Buf (Elt F) ((c : Thread nD τ).loc b))

/-- THE ACCUMULATION. After the body at position `n`: (the output tile's staging buffer, the running maximum, the running
    denominator, the running numerator). At a first key tile the accumulators restart from the reset values; elsewhere they
    continue from what position `n - 1` left. -/
def outsAt1 (c : Dev nD) : (n : ℕ) → n < cfg1.N → Vec F S1024x1024 .f32 × Vec F S1024x1 .f32 × Vec F S1024x1 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 16 = 0) (h1 : ¬t.val % 16 = 15) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the resting invariant (every accumulator at anything);
    afterwards the five untouched buffers, the three accumulators at what the point before left, the generator register. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg2_1
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The proof data of the attention pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

section Region1b
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the key tile's position selects the case; the invariant hands the body the accumulators at
    what the point before left (at anything at the very first point, and a first key tile overwrites them anyway) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · by_cases h1 : t.val % 16 = 15
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ hc0 hc1 (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Ha Hb Hc Hd He HS0 HS1 HS2 Hg]
        · isplitl [Ha Hb Hc Hd He HS0 HS1 HS2]
          · isplitl [Ha]; · iexact Ha
            isplitl [Hb]; · iexact Hb
            isplitl [Hc]; · iexact Hc
            isplitl [Hd]; · iexact Hd
            isplitl [He]; · iexact He
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ hc0 hc1 (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Ha Hb Hc Hd He HS0 HS1 HS2 Hg]
        · isplitl [Ha Hb Hc Hd He HS0 HS1 HS2]
          · isplitl [Ha]; · iexact Ha
            isplitl [Hb]; · iexact Hb
            isplitl [Hc]; · iexact Hc
            isplitl [Hd]; · iexact Hd
            isplitl [He]; · iexact He
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · have hc0 : ¬cond1_0 (grid1.coords t) := fun h => h0 ((hcond1_0 t).mp h)
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C_4 sout1_C_0 sout1_C_1 sout1_C_2; (try dsimp only)
      rw [PhiS_castSucc V c t, PhiS_pos V c _ _ hz]
      iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ hc0 hc1 (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [Ha Hb Hc Hd He HS0 HS1 HS2 Hg]
      · isplitl [Ha Hb Hc Hd He HS0 HS1 HS2]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold sout1_B_0 sout1_B_1 sout1_B_2; (try dsimp only)
      rw [PhiS_castSucc V c t, PhiS_pos V c _ _ hz]
      iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ hc0 hc1 (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [Ha Hb Hc Hd He HS0 HS1 HS2 Hg]
      · isplitl [Ha Hb Hc Hd He HS0 HS1 HS2]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the resting invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, He, HS0, HS1, HS2⟩, Hg⟩
  isplitl [Ha Hb Hc Hd He HS0 HS1 HS2]
  · isplitl [Ha]; · iexact Ha
    isplitl [Hb]; · iexact Hb
    isplitl [Hc]; · iexact Hc
    isplitl [Hd]; · iexact Hd
    isplitl [He]; · iexact He
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end Region1b

end Cert.Kernel.Hand

end
-- ==== Proof.K.Run.lean ====
import proofs.«159827_j24661702213738_2_alg».proof.Proof.K.Region0
import proofs.«159827_j24661702213738_2_alg».proof.Proof.K.Region1
import proofs.«159827_j24661702213738_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: two host stretches and two kernel calls, from the launch to the return -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After the first host stretch (the casts and the concatenation of the two projection weights). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the projection call: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the two column slices: queries and keys). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- A buffer that is no array of either call and that no host operation writes ends as launched. -/
theorem B4_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    B4 m ρ c (Proc.devRef .tc r) = m ((c : Thread nD τ).loc r) :=
  (B4_of_ne m ρ c r h4).trans <| (StableHlo.after_of_writes_sub hostOps1 _ hostOps1_writes h3).trans <|
    (B2_of_ne m ρ c r h2).trans <| (StableHlo.after_of_writes_sub hostOps0 _ hostOps0_writes h1).trans rfl

theorem B4_main_arg0 (c : Dev nD) : B4 m ρ c (Proc.devRef .tc main_arg0) = m ((c : Thread nD τ).loc main_arg0) :=
  B4_untouched m ρ c main_arg0 (by decide) (by decide) (by decide) (by decide)
theorem B4_main_arg1 (c : Dev nD) : B4 m ρ c (Proc.devRef .tc main_arg1) = m ((c : Thread nD τ).loc main_arg1) :=
  B4_untouched m ρ c main_arg1 (by decide) (by decide) (by decide) (by decide)
theorem B4_main_arg2 (c : Dev nD) : B4 m ρ c (Proc.devRef .tc main_arg2) = m ((c : Thread nD τ).loc main_arg2) :=
  B4_untouched m ρ c main_arg2 (by decide) (by decide) (by decide) (by decide)
theorem B4_main_arg3 (c : Dev nD) : B4 m ρ c (Proc.devRef .tc main_arg3) = m ((c : Thread nD τ).loc main_arg3) :=
  B4_untouched m ρ c main_arg3 (by decide) (by decide) (by decide) (by decide)
/-- The result buffer ends at what the attention pipeline leaves in its output array. -/
theorem B4_main_v7 (c : Dev nD) : B4 m ρ c (Proc.devRef .tc main_v7) = (dat1 (E3 m ρ) c).arrAt 4 cfg1.N :=
  B4_arr m ρ c 4

/-! ## The proof data family and the thread state -/

/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The kernel calls as segments -/

set_option backward.isDefEq.respectTransparency.types false in
/-- Kernel call 0 as a segment: entered with every unscoped buffer at the boundary before it, left with them at the
    boundary after it; its arrays are split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment: entered with every unscoped buffer at the boundary before it, left with them at the
    boundary after it; its arrays are split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (show Pipeline.ΦA spec1 c ⊢ (pdats m ρ 1 c).Φ 0 from hin1 (E3 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (E3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segsH m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c)⟩) (run_all m ρ)

/-- The run with the result named: the result buffer ends at what the attention pipeline leaves in its output array. -/
theorem run_value : θ_run defs (onTc (τ := τ) (main (F := F))) ⟨m, fun _ => 0, ρ⟩ (fun r => ∀ c : Dev nD,
      r.2.mem ((c.tc : Thread nD τ).loc main_v7) = (dat1 (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v7 (by decide))).trans (B4_main_v7 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c)⟩) (run_all m ρ)

end Cert.Kernel.Hand

end
-- ==== Proof.KI.Region0.lean ====
/- REGION 0 of the idealized kernel program: the projection call. At every one of its 8 grid points the body
   reads a 1024-row tile of the activations (window 0) and the whole stacked weight matrix (window 1, fetched
   once, kept in one buffer), multiplies the tile by the transposed weights into a zero accumulator, narrows the
   product and stores it over the whole 1024×2048 output tile (window 2).

   Everything is stated at a PARAMETER `V` — the core's buffer contents when the region is entered — and at any
   float instance `F`: each window's block at a point, what the body leaves in the output tile as a function of
   the two input blocks, the body's triple, the region's proof data and its body obligation. -/
import proofs.«159827_j24661702213738_2_alg».proof.Proof.Gen.KernelIdeal.Launch
import proofs.«159827_j24661702213738_2_alg».proof.Proof.Gen.KernelIdeal.Skeleton
import proofs.«159827_j24661702213738_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 2048 entries: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its row tile at every point, for ANY proof data whose array is `V`'s (`hA`) and
    whose body leaves the tile in place (`hafter`): the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds the whole stacked matrix at every point, fetched there (the first point) or not (every
    later one: its block index never moves, and the body leaves the buffer as it found it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read and written whole -/

abbrev r0_0 : Rect S1024x1024 := Rect.unit (s := S1024x1024) ![0, 0] S1024x1024.size inb_S1024x1024_S1024x1024_0_0
abbrev r0_1 : Rect S2048x1024 := Rect.unit (s := S2048x1024) ![0, 0] S2048x1024.size inb_S2048x1024_S2048x1024_0_0
abbrev r0_2 : Rect S1024x2048 := Rect.unit (s := S1024x2048) ![0, 0] S1024x2048.size inb_S1024x2048_S1024x2048_0_0

/-! ## What the body leaves in the output window's buffer -/

/-- The output tile after the body, from the two input blocks: its one store, of the narrowed product of the
    activations' tile with the transposed weights, over the whole tile. -/
def out0_2 (x0 : Vec F S1024x1024 .bf16) (x1 : Vec F S2048x1024 .bf16) : Vec F S1024x2048 .bf16 :=
  View.canon [⟨r0_2, k0_pay1 (View.ld x0 r0_0) (View.ld x1 r0_1)⟩]

/-- The one store is of the whole tile, so it covers it. -/
theorem cover0_2 (p0 : Vec F S1024x2048 .bf16) (y : S1024x2048.Idx) :
    ∃ pc ∈ ([⟨r0_2, p0⟩] : List (View.Piece (Elt F) S1024x2048 .bf16)), y ∈ pc.1.set :=
  View.cover_of_tiled [⟨r0_2, p0⟩] S1024x2048.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S1024x1024 .bf16) (harg1 : arg1.IsWhole)
    (arg2 : Memref sig .tc .vmem S2048x1024 .bf16) (harg2 : arg2.IsWhole) (arg3 : Memref sig .tc .vmem S1024x2048 .bf16) (harg3 : arg3.IsWhole)
    (x0 : Vec F S1024x1024 .bf16) (x1 : Vec F S2048x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_qk_kernel i arg1 harg1 arg2 harg2 arg3 harg3) K := by
  simp only [cc0__linear_qk_kernel_eq_skeleton]; unfold cc0__linear_qk_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them (`V`); after the body at point `t`
    each input's buffer at its block and the output's at `out0_2` of the two input blocks; the invariant "the scoped rest
    and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
import proofs.«159827_j24661702213738_2_alg».proof.Proof.Gen.KernelIdeal.Launch
import proofs.«159827_j24661702213738_2_alg».proof.Proof.Gen.KernelIdeal.Skeleton
import proofs.«159827_j24661702213738_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region (the second kernel call): what its three control cases share

The grid is 8 row tiles by 16 key/value tiles, walked row-major: point `t` is row tile `t / 16`, key tile `t % 16`.
The running maximum, the running denominator and the running numerator live in three scratch buffers that the
kernel keeps from one point to the next; they are reset at key tile 0 and read out at key tile 15. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, decided over the grid -/

/-- "This is the first key tile": the condition under which the three accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is the last key tile": the condition under which the output tile is computed and stored. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile the output window is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The three accumulators: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- A scoped buffer the attention kernel never touches (a staging buffer of the projection call), at anything. -/
abbrev oth (c : Dev nD) (b : Ref sig .tc) : sProp 𝕄 :=
  iprop(∃ f : Buf (Elt F) ((c : Thread nD τ).loc b), ((c : Thread nD τ).loc b) ↦{fullShare} f)

/-- The region's resting invariant spelled out: the five untouched buffers, the three accumulators at some contents, and
    the generator register at some state. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg2_1
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

end Cert.KernelIdeal.Hand

end
-- ==== Proof.KI.Region1RunA.lean ====
import proofs.«159827_j24661702213738_2_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key tile that is not the last: the accumulators, whatever they held, are reset and then
    updated with this tile; the output tile is left as it was. The pieces each accumulator ends with are found by the run. -/
noncomputable def kernelRun1_A (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__kernel_eq_skeleton]; unfold cc1__kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Region1RunB.lean ====
import proofs.«159827_j24661702213738_2_alg».proof.Proof.KI.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a key tile that is neither the first nor the last: the accumulators, at what the point before left,
    are updated with this tile; the output tile is left as it was. -/
noncomputable def kernelRun1_B (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi4 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__kernel_eq_skeleton]; unfold cc1__kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Region1RunC.lean ====
import proofs.«159827_j24661702213738_2_alg».proof.Proof.KI.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last key tile (which is not the first): the accumulators are updated with this tile, then the
    numerator is divided by the denominator, multiplied with the value weights and stored as the output tile. -/
noncomputable def kernelRun1_C (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    Σ' (L4 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__kernel i arg2 harg2 arg3 harg3 arg4 harg4 arg5 harg5 arg6 harg6 arg7 harg7 arg8 harg8 arg9 harg9) K } := by
  refine ⟨?_, ?_, ?_, ?_, fun E K => ?run⟩
  case run =>
    simp only [cc1__kernel_eq_skeleton]; unfold cc1__kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Region1.lean ====
import proofs.«159827_j24661702213738_2_alg».proof.Proof.KI.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what the accumulators and the output tile hold point by point, the proof data, the body obligation -/

/-- What case A leaves in the output tile's staging buffer (nothing is stored: a placeholder no one consults, the window being idle there). -/
def out1_A_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1024 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- In case A the stores into the running maximum cover it. -/
theorem scover1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in the running maximum. -/
def sout1_A_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- In case A the stores into the running denominator cover it. -/
theorem scover1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in the running denominator. -/
def sout1_A_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- In case A the stores into the running numerator cover it. -/
theorem scover1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) (y : S1024x1024.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x1024.size (by sl_kernel_rfl) y

/-- What case A leaves in the running numerator. -/
def sout1_A_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- What case B leaves in the output tile's staging buffer (nothing is stored: a placeholder no one consults, the window being idle there). -/
def out1_B_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- In case B the stores into the running maximum cover it. -/
theorem scover1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in the running maximum. -/
def sout1_B_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- In case B the stores into the running denominator cover it. -/
theorem scover1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in the running denominator. -/
def sout1_B_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- In case B the stores into the running numerator cover it. -/
theorem scover1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case B leaves in the running numerator. -/
def sout1_B_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- In case C the stores into the output tile's staging buffer cover it. -/
theorem cover1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x1024.size (by sl_kernel_rfl) y

/-- What case C leaves in the output tile's staging buffer. -/
def out1_C_4 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- In case C the stores into the running maximum cover it. -/
theorem scover1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in the running maximum. -/
def sout1_C_0 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- In case C the stores into the running denominator cover it. -/
theorem scover1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in the running denominator. -/
def sout1_C_1 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- In case C the stores into the running numerator cover it. -/
theorem scover1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x1024.size (by sl_kernel_rfl) y

/-- What case C leaves in the running numerator. -/
def sout1_C_2 (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

section Region1
variable (V : (c : Dev nD) → (b : Ref sig .tc) → Buf (Elt F) ((c : Thread nD τ).loc b))

/-- THE ACCUMULATION. After the body at position `n`: (the output tile's staging buffer, the running maximum, the running
    denominator, the running numerator). At a first key tile the accumulators restart from the reset values; elsewhere they
    continue from what position `n - 1` left. -/
def outsAt1 (c : Dev nD) : (n : ℕ) → n < cfg1.N → Vec F S1024x1024 .f32 × Vec F S1024x1 .f32 × Vec F S1024x1 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 16 = 0) (h1 : ¬t.val % 16 = 15) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the resting invariant (every accumulator at anything);
    afterwards the five untouched buffers, the three accumulators at what the point before left, the generator register. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg2_1
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The proof data of the attention pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Region1

section Region1b
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the key tile's position selects the case; the invariant hands the body the accumulators at
    what the point before left (at anything at the very first point, and a first key tile overwrites them anyway) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · by_cases h1 : t.val % 16 = 15
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ hc0 hc1 (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Ha Hb Hc Hd He HS0 HS1 HS2 Hg]
        · isplitl [Ha Hb Hc Hd He HS0 HS1 HS2]
          · isplitl [Ha]; · iexact Ha
            isplitl [Hb]; · iexact Hb
            isplitl [Hc]; · iexact Hc
            isplitl [Hd]; · iexact Hd
            isplitl [He]; · iexact He
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ hc0 hc1 (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Ha Hb Hc Hd He HS0 HS1 HS2 Hg]
        · isplitl [Ha Hb Hc Hd He HS0 HS1 HS2]
          · isplitl [Ha]; · iexact Ha
            isplitl [Hb]; · iexact Hb
            isplitl [Hc]; · iexact Hc
            isplitl [Hd]; · iexact Hd
            isplitl [He]; · iexact He
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · have hc0 : ¬cond1_0 (grid1.coords t) := fun h => h0 ((hcond1_0 t).mp h)
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [outsAt1_C V c t h0 h1]
      unfold out1_C_4 sout1_C_0 sout1_C_1 sout1_C_2; (try dsimp only)
      rw [PhiS_castSucc V c t, PhiS_pos V c _ _ hz]
      iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ hc0 hc1 (iblk1 V c 0 t) (iblk1 V c 1 t) (iblk1 V c 2 t) (iblk1 V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [Ha Hb Hc Hd He HS0 HS1 HS2 Hg]
      · isplitl [Ha Hb Hc Hd He HS0 HS1 HS2]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 4 t (idleAt1_4 t hc1) (noFlush1_4 t hc1)]
      rw [outsAt1_B V c t h0 h1]
      unfold sout1_B_0 sout1_B_1 sout1_B_2; (try dsimp only)
      rw [PhiS_castSucc V c t, PhiS_pos V c _ _ hz]
      iintro ⟨⟨⟨Ha, Hb, Hc, Hd, He, HS0, HS1, HS2⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ hc0 hc1 (iblk1 V c 0 t) (iblk1 V c 1 t) (iblk1 V c 2 t) (iblk1 V c 3 t) _ _ _).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [Ha Hb Hc Hd He HS0 HS1 HS2 Hg]
      · isplitl [Ha Hb Hc Hd He HS0 HS1 HS2]
        · isplitl [Ha]; · iexact Ha
          isplitl [Hb]; · iexact Hb
          isplitl [Hc]; · iexact Hc
          isplitl [Hd]; · iexact Hd
          isplitl [He]; · iexact He
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the resting invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, He, HS0, HS1, HS2⟩, Hg⟩
  isplitl [Ha Hb Hc Hd He HS0 HS1 HS2]
  · isplitl [Ha]; · iexact Ha
    isplitl [Hb]; · iexact Hb
    isplitl [Hc]; · iexact Hc
    isplitl [Hd]; · iexact Hd
    isplitl [He]; · iexact He
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 128 := N_1; omega)

end Region1b

end Cert.KernelIdeal.Hand

end
-- ==== Proof.KI.Run.lean ====
import proofs.«159827_j24661702213738_2_alg».proof.Proof.KI.Region0
import proofs.«159827_j24661702213738_2_alg».proof.Proof.KI.Region1
import proofs.«159827_j24661702213738_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: two host stretches and two kernel calls, from the launch to the return -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After the first host stretch (the casts and the concatenation of the two projection weights). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the projection call: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (the two column slices: queries and keys). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- A buffer that is no array of either call and that no host operation writes ends as launched. -/
theorem B4_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    B4 m ρ c (Proc.devRef .tc r) = m ((c : Thread nD τ).loc r) :=
  (B4_of_ne m ρ c r h4).trans <| (StableHlo.after_of_writes_sub hostOps1 _ hostOps1_writes h3).trans <|
    (B2_of_ne m ρ c r h2).trans <| (StableHlo.after_of_writes_sub hostOps0 _ hostOps0_writes h1).trans rfl

theorem B4_main_arg0 (c : Dev nD) : B4 m ρ c (Proc.devRef .tc main_arg0) = m ((c : Thread nD τ).loc main_arg0) :=
  B4_untouched m ρ c main_arg0 (by decide) (by decide) (by decide) (by decide)
theorem B4_main_arg1 (c : Dev nD) : B4 m ρ c (Proc.devRef .tc main_arg1) = m ((c : Thread nD τ).loc main_arg1) :=
  B4_untouched m ρ c main_arg1 (by decide) (by decide) (by decide) (by decide)
theorem B4_main_arg2 (c : Dev nD) : B4 m ρ c (Proc.devRef .tc main_arg2) = m ((c : Thread nD τ).loc main_arg2) :=
  B4_untouched m ρ c main_arg2 (by decide) (by decide) (by decide) (by decide)
theorem B4_main_arg3 (c : Dev nD) : B4 m ρ c (Proc.devRef .tc main_arg3) = m ((c : Thread nD τ).loc main_arg3) :=
  B4_untouched m ρ c main_arg3 (by decide) (by decide) (by decide) (by decide)
/-- The result buffer ends at what the attention pipeline leaves in its output array. -/
theorem B4_main_v7 (c : Dev nD) : B4 m ρ c (Proc.devRef .tc main_v7) = (dat1 (E3 m ρ) c).arrAt 4 cfg1.N :=
  B4_arr m ρ c 4

/-! ## The proof data family and the thread state -/

/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The kernel calls as segments -/

set_option backward.isDefEq.respectTransparency.types false in
/-- Kernel call 0 as a segment: entered with every unscoped buffer at the boundary before it, left with them at the
    boundary after it; its arrays are split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment: entered with every unscoped buffer at the boundary before it, left with them at the
    boundary after it; its arrays are split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (show Pipeline.ΦA spec1 c ⊢ (pdats m ρ 1 c).Φ 0 from hin1 (E3 m ρ) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (E3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segsH m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c)⟩) (run_all m ρ)

/-- The run with the result named: the result buffer ends at what the attention pipeline leaves in its output array. -/
theorem run_value : θ_run defs (onTc (τ := τ) (main (F := F))) ⟨m, fun _ => 0, ρ⟩ (fun r => ∀ c : Dev nD,
      r.2.mem ((c.tc : Thread nD τ).loc main_v7) = (dat1 (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v7 (by decide))).trans (B4_main_v7 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c)⟩) (run_all m ρ)

end Cert.KernelIdeal.Hand

end
-- ==== Proof.Spec.lean ====
/-
  The attention layer this certificate is about, as ONE function of its four argument arrays, index by index, at the
  extended reals. No program is imported: the arrays are plain functions of two literal coordinates.

  For x : [8192, 1024] and square weights Wq, Wk, Wv : [1024, 1024]
    q i a      = ∑ k, x i k * Wq a k                      (the query rows, x · Wqᵀ)
    kk j a     = ∑ k, x j k * Wk a k                      (the key rows, x · Wkᵀ)
    logit i j  = (∑ a, q i a * kk j a) * c                (c the f32 word 0x3D000000, that is 1/32, on the right)
    rowMax i   = ⨆ j, logit i j                           (the row's largest logit)
    e i j      = exp (logit i j - rowMax i)
    den i      = ∑ j, e i j
    A i j      = e i j / den i                            (the softmax row)
    y i d      = ∑ j, A i j * x j d                       (mixing the rows of x)
    out i d'   = ∑ d, y i d * Wv d' d                     (the value projection, applied after mixing)
-/
import Idealize.ShloMosaic.PureOps.Ideal
import Idealize.ShloMosaic.Lib.ValueIdx

noncomputable section

open scoped BigOperators

namespace Cert.Spec

open Idealize.ShloMosaic

variable (x : Fin 8192 → Fin 1024 → EReal) (Wq Wk Wv : Fin 1024 → Fin 1024 → EReal)

/-- The scale of the logits: the f32 word 0x3D000000 (1/32 = 1024^(-1/2)), never evaluated. -/
def scale : EReal := Ideal.ofBits .f32 0x3D000000#32

/-- Query row i, feature a: row i of x against row a of Wq. -/
def q (i : Fin 8192) (a : Fin 1024) : EReal := ∑ k : Fin 1024, x i k * Wq a k

/-- Key row j, feature a: row j of x against row a of Wk. -/
def kk (j : Fin 8192) (a : Fin 1024) : EReal := ∑ k : Fin 1024, x j k * Wk a k

/-- The scaled logit of query row i against key row j; the scale multiplies on the right. -/
def logit (i j : Fin 8192) : EReal := (∑ a : Fin 1024, q x Wq i a * kk x Wk j a) * scale

/-- The largest logit of row i. -/
def rowMax (i : Fin 8192) : EReal := ⨆ j : Fin 8192, logit x Wq Wk i j

/-- The shifted exponential. -/
def e (i j : Fin 8192) : EReal := Ideal.exp (logit x Wq Wk i j - rowMax x Wq Wk i)

/-- The softmax denominator of row i. -/
def den (i : Fin 8192) : EReal := ∑ j : Fin 8192, e x Wq Wk i j

/-- The softmax weight of key row j for query row i. -/
def A (i j : Fin 8192) : EReal := Ideal.div (e x Wq Wk i j) (den x Wq Wk i)

/-- The rows of x mixed by the softmax weights. -/
def y (i : Fin 8192) (d : Fin 1024) : EReal := ∑ j : Fin 8192, A x Wq Wk i j * x j d

/-- The value projection of the mixed rows: the layer's result at row i, column d'. -/
def out (i : Fin 8192) (d' : Fin 1024) : EReal := ∑ d : Fin 1024, y x Wq Wk i d * Wv d' d

end Cert.Spec

end
-- ==== Proof.KI.Inputs.lean ====
import proofs.«159827_j24661702213738_2_alg».proof.Defs
import proofs.«159827_j24661702213738_2_alg».proof.Proof.Spec
import Idealize.ShloMosaic.Lib.ValueIdx

noncomputable section

namespace Cert.KernelIdeal.Hand

open Cert.KernelIdeal
open Idealize.ShloMosaic Idealize.ShloMosaic.TcCoe Idealize.SL.Sem

/-- The four argument arrays of the idealized kernel program on core `c`, as arrays of extended reals. -/
abbrev inX (m : (ℓ : Loc nD τ sig) → Buf (Elt Ideal) ℓ) (c : Dev nD) : FVec Ideal S8192x1024 .f32 := m ((c.tc : Thread nD τ).loc main_arg0)
abbrev inWq (m : (ℓ : Loc nD τ sig) → Buf (Elt Ideal) ℓ) (c : Dev nD) : FVec Ideal S1024x1024 .f32 := m ((c.tc : Thread nD τ).loc main_arg1)
abbrev inWk (m : (ℓ : Loc nD τ sig) → Buf (Elt Ideal) ℓ) (c : Dev nD) : FVec Ideal S1024x1024 .f32 := m ((c.tc : Thread nD τ).loc main_arg2)
abbrev inWv (m : (ℓ : Loc nD τ sig) → Buf (Elt Ideal) ℓ) (c : Dev nD) : FVec Ideal S1024x1024 .f32 := m ((c.tc : Thread nD τ).loc main_arg3)

/-- The attention output as one function of the four argument arrays: the specification read at an array index. -/
def specOut (m : (ℓ : Loc nD τ sig) → Buf (Elt Ideal) ℓ) (c : Dev nD) : S8192x1024.Idx → EReal := fun i =>
  Cert.Spec.out (fun a b => inX m c (ValueIdx.ix2 a b)) (fun a b => inWq m c (ValueIdx.ix2 a b))
    (fun a b => inWk m c (ValueIdx.ix2 a b)) (fun a b => inWv m c (ValueIdx.ix2 a b)) (i 0) (i 1)

end Cert.KernelIdeal.Hand

end
-- ==== Proof.LibOnlineSoftmax.lean ====
import Idealize.ShloMosaic.PureOps.Ideal

/-!
# The online (streaming) softmax recurrence equals the one-shot softmax

For real logits `s : ℕ → ℝ` and real values `v : ℕ → ℝ`, read in the extended reals, define for a prefix
of length `n`

* `runMax s n`   — the maximum of the first `n` logits (`⊥` for `n = 0`),
* `runDen s n`   — `∑_{j<n} exp (s j - runMax s n)`, the softmax denominator relative to that maximum,
* `runNum s v n` — `∑_{j<n} exp (s j - runMax s n) * v j`, the unnormalised weighted sum.

Appending a block of `T` further logits updates the three quantities by the streaming rule

  `m' = max m (block maximum)`,
  `l' = exp (m - m') * l + ∑_block exp (s - m')`,
  `a' = exp (m - m') * a + ∑_block exp (s - m') * v`,

(`runMax_add`, `runDen_add`, `runNum_add`), uniformly in `n` and `T`: from the empty prefix the old maximum
is `⊥`, `exp (⊥ - m') = exp ⊥ = 0` and the old sums are `0`. Normalising the accumulated numerator once
at the end equals summing the normalised weights (`softmax_final`).

For a nonempty prefix every quantity is the coercion of a real number (`runMax_real`, `runDen_pos_real`,
`runNum_real`), and the identities are proved in `ℝ` (`exp (a + b) = exp a * exp b`, distributivity) and
transported along the coercion; the extended reals themselves are not distributive at the infinities.
-/

open Idealize.ShloMosaic
open scoped BigOperators

noncomputable section

namespace LibOnlineSoftmax

/-! ### The coercion `ℝ → EReal` and finite sums, the exponential of a difference of reals -/

/-- The coercion `ℝ → EReal` commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion `ℝ → EReal` commutes with `max`. -/
theorem coe_max (a b : ℝ) : ((max a b : ℝ) : EReal) = max (a : EReal) (b : EReal) :=
  EReal.coe_strictMono.monotone.map_max

/-- The extended exponential of a difference of two reals is the real exponential of the difference. -/
theorem exp_coe_sub (a b : ℝ) :
    Ideal.exp ((a : EReal) - (b : EReal)) = ((Real.exp (a - b) : ℝ) : EReal) := by
  rw [← EReal.coe_sub, Ideal.exp_coe]

/-! ### Suprema over `Fin T` and over `Finset.range T` -/

/-- A supremum over all of `Fin T` of a function of the underlying number is the supremum over
    `Finset.range T`. -/
theorem sup_univ_fin_eq_sup_range {α : Type*} [SemilatticeSup α] [OrderBot α] (T : ℕ) (f : ℕ → α) :
    (Finset.univ : Finset (Fin T)).sup (fun j => f j.val) = (Finset.range T).sup f := by
  refine le_antisymm (Finset.sup_le fun j _ => ?_) (Finset.sup_le fun j hj => ?_)
  · exact Finset.le_sup (f := f) (Finset.mem_range.2 j.isLt)
  · exact Finset.le_sup (f := fun j : Fin T => f j.val) (Finset.mem_univ ⟨j, Finset.mem_range.1 hj⟩)

/-- The indexed supremum `⨆ j : Fin T, f j` in a complete lattice is the supremum over `Finset.range T`. -/
theorem iSup_fin_eq_sup_range {α : Type*} [CompleteLattice α] (T : ℕ) (f : ℕ → α) :
    (⨆ j : Fin T, f j.val) = (Finset.range T).sup f :=
  (Finset.sup_univ_eq_iSup (fun j : Fin T => f j.val)).symm.trans (sup_univ_fin_eq_sup_range T f)

/-- The fold of `max` from `⊥` over all of `Fin T` (the form a maximum-reduction over one axis takes)
    is the supremum over `Finset.range T`. -/
theorem fold_max_bot_fin_eq_sup_range (T : ℕ) (f : ℕ → EReal) :
    (Finset.univ : Finset (Fin T)).fold max ⊥ (fun j => f j.val) = (Finset.range T).sup f :=
  sup_univ_fin_eq_sup_range T f

/-! ### The three running quantities -/

/-- The running maximum of the first `n` logits in the extended reals: `⊥` for `n = 0`. -/
def runMax (s : ℕ → ℝ) (n : ℕ) : EReal := (Finset.range n).sup fun j => ((s j : ℝ) : EReal)

/-- The running softmax denominator of the first `n` logits, relative to their maximum:
    `∑_{j<n} exp (s j - runMax s n)`. -/
def runDen (s : ℕ → ℝ) (n : ℕ) : EReal :=
  ∑ j ∈ Finset.range n, Ideal.exp ((s j : EReal) - runMax s n)

/-- The running unnormalised softmax-weighted sum of the first `n` values, relative to the maximum of the
    first `n` logits: `∑_{j<n} exp (s j - runMax s n) * v j`. -/
def runNum (s v : ℕ → ℝ) (n : ℕ) : EReal :=
  ∑ j ∈ Finset.range n, Ideal.exp ((s j : EReal) - runMax s n) * (v j : EReal)

/-- The maximum of no logits is `⊥`. -/
@[simp] theorem runMax_zero (s : ℕ → ℝ) : runMax s 0 = ⊥ := by
  simp [runMax]

/-- The denominator of no logits is `0`. -/
@[simp] theorem runDen_zero (s : ℕ → ℝ) : runDen s 0 = 0 := by
  simp [runDen]

/-- The weighted sum of no values is `0`. -/
@[simp] theorem runNum_zero (s v : ℕ → ℝ) : runNum s v 0 = 0 := by
  simp [runNum]

/-- One more logit: the new maximum is the maximum of the old one and the new logit. -/
theorem runMax_succ (s : ℕ → ℝ) (n : ℕ) : runMax s (n + 1) = max (runMax s n) (s n : EReal) := by
  unfold runMax
  rw [Finset.range_add_one, Finset.sup_insert]
  exact max_comm _ _

/-- Appending a block of `T` logits: the new maximum is the maximum of the old maximum and the block's
    maximum. Holds for every `n` and `T`, the empty prefix and the empty block included. -/
theorem runMax_add (s : ℕ → ℝ) (n T : ℕ) :
    runMax s (n + T) = max (runMax s n) ((Finset.range T).sup fun j => ((s (n + j) : ℝ) : EReal)) := by
  induction T with
  | zero => simp
  | succ T ih =>
    rw [← Nat.add_assoc, runMax_succ, ih, Finset.range_add_one, Finset.sup_insert, max_assoc]
    congr 1
    exact max_comm _ _

/-- The maximum of a nonempty prefix of real logits is a real number. -/
theorem runMax_real (s : ℕ → ℝ) {n : ℕ} (hn : 0 < n) : ∃ M : ℝ, runMax s n = (M : EReal) := by
  induction n with
  | zero => exact absurd hn (lt_irrefl 0)
  | succ k ih =>
    rcases Nat.eq_zero_or_pos k with rfl | hk
    · exact ⟨s 0, by rw [runMax_succ, runMax_zero, max_eq_right bot_le]⟩
    · obtain ⟨M, hM⟩ := ih hk
      exact ⟨max M (s k), by rw [runMax_succ, hM, coe_max]⟩

/-- When the running maximum is the real `M`, the denominator is the coercion of the real sum
    `∑_{j<n} exp (s j - M)`. -/
theorem runDen_of_max (s : ℕ → ℝ) {n : ℕ} {M : ℝ} (h : runMax s n = (M : EReal)) :
    runDen s n = ((∑ j ∈ Finset.range n, Real.exp (s j - M) : ℝ) : EReal) := by
  unfold runDen
  rw [h, coe_finset_sum]
  exact Finset.sum_congr rfl fun j _ => exp_coe_sub _ _

/-- When the running maximum is the real `M`, the weighted sum is the coercion of the real sum
    `∑_{j<n} exp (s j - M) * v j`. -/
theorem runNum_of_max (s v : ℕ → ℝ) {n : ℕ} {M : ℝ} (h : runMax s n = (M : EReal)) :
    runNum s v n = ((∑ j ∈ Finset.range n, Real.exp (s j - M) * v j : ℝ) : EReal) := by
  unfold runNum
  rw [h, coe_finset_sum]
  exact Finset.sum_congr rfl fun j _ => by rw [exp_coe_sub, EReal.coe_mul]

/-- The denominator of a nonempty prefix is a positive real number. -/
theorem runDen_pos_real (s : ℕ → ℝ) {n : ℕ} (hn : 0 < n) :
    ∃ L : ℝ, 0 < L ∧ runDen s n = (L : EReal) := by
  obtain ⟨M, hM⟩ := runMax_real s hn
  refine ⟨_, ?_, runDen_of_max s hM⟩
  exact Finset.sum_pos (fun j _ => Real.exp_pos _) ⟨0, Finset.mem_range.2 hn⟩

/-- The weighted sum over a nonempty prefix is a real number. -/
theorem runNum_real (s v : ℕ → ℝ) {n : ℕ} (hn : 0 < n) : ∃ A : ℝ, runNum s v n = (A : EReal) := by
  obtain ⟨M, hM⟩ := runMax_real s hn
  exact ⟨_, runNum_of_max s v hM⟩

/-! ### One streaming step -/

/-- Appending a block of `T` logits rescales the old denominator by `exp (m - m')` and adds the block's
    terms relative to the new maximum `m'`. For `n = 0` the old maximum is `⊥`, `exp (⊥ - m') = 0` and the
    old denominator is `0`; for `n > 0` this is `exp (m - m') * exp (s j - m) = exp (s j - m')` in `ℝ`. -/
theorem runDen_add (s : ℕ → ℝ) (n T : ℕ) :
    runDen s (n + T) = Ideal.exp (runMax s n - runMax s (n + T)) * runDen s n
      + ∑ j ∈ Finset.range T, Ideal.exp ((s (n + j) : EReal) - runMax s (n + T)) := by
  rcases Nat.eq_zero_or_pos n with rfl | hn
  · rw [runMax_zero, EReal.bot_sub, Ideal.exp_bot, runDen_zero, mul_zero]
    simp only [zero_add]
    rfl
  · obtain ⟨M, hM⟩ := runMax_real s hn
    obtain ⟨M', hM'⟩ := runMax_real s (Nat.add_pos_left hn T)
    rw [runDen_of_max s hM', runDen_of_max s hM, hM, hM']
    simp only [exp_coe_sub]
    rw [← coe_finset_sum, ← EReal.coe_mul, ← EReal.coe_add]
    congr 1
    rw [Finset.sum_range_add, Finset.mul_sum]
    congr 1
    refine Finset.sum_congr rfl fun j _ => ?_
    rw [← Real.exp_add]
    congr 1
    ring

/-- Appending a block of `T` logits and values rescales the old weighted sum by `exp (m - m')` and adds
    the block's weighted terms relative to the new maximum `m'`; the cases are as in `runDen_add`. -/
theorem runNum_add (s v : ℕ → ℝ) (n T : ℕ) :
    runNum s v (n + T) = Ideal.exp (runMax s n - runMax s (n + T)) * runNum s v n
      + ∑ j ∈ Finset.range T,
          Ideal.exp ((s (n + j) : EReal) - runMax s (n + T)) * (v (n + j) : EReal) := by
  rcases Nat.eq_zero_or_pos n with rfl | hn
  · rw [runMax_zero, EReal.bot_sub, Ideal.exp_bot, runNum_zero, mul_zero]
    simp only [zero_add]
    rfl
  · obtain ⟨M, hM⟩ := runMax_real s hn
    obtain ⟨M', hM'⟩ := runMax_real s (Nat.add_pos_left hn T)
    rw [runNum_of_max s v hM', runNum_of_max s v hM, hM, hM']
    simp only [exp_coe_sub, ← EReal.coe_mul]
    rw [← coe_finset_sum, ← EReal.coe_add]
    congr 1
    rw [Finset.sum_range_add, Finset.mul_sum]
    congr 1
    refine Finset.sum_congr rfl fun j _ => ?_
    rw [← mul_assoc, ← Real.exp_add]
    congr 2
    ring

/-! ### The same steps in the forms a block reduction produces: a zero seed, an index in `Fin T` -/

/-- `runDen_add` with the block's sum started from the seed `0`. -/
theorem runDen_add_zero (s : ℕ → ℝ) (n T : ℕ) :
    runDen s (n + T) = Ideal.exp (runMax s n - runMax s (n + T)) * runDen s n
      + (0 + ∑ j ∈ Finset.range T, Ideal.exp ((s (n + j) : EReal) - runMax s (n + T))) := by
  rw [zero_add]; exact runDen_add s n T

/-- `runNum_add` with the block's sum started from the seed `0`. -/
theorem runNum_add_zero (s v : ℕ → ℝ) (n T : ℕ) :
    runNum s v (n + T) = Ideal.exp (runMax s n - runMax s (n + T)) * runNum s v n
      + (0 + ∑ j ∈ Finset.range T,
          Ideal.exp ((s (n + j) : EReal) - runMax s (n + T)) * (v (n + j) : EReal)) := by
  rw [zero_add]; exact runNum_add s v n T

/-- `runMax_add` with the block's maximum taken over `Fin T`. -/
theorem runMax_add_fin (s : ℕ → ℝ) (n T : ℕ) :
    runMax s (n + T)
      = max (runMax s n) ((Finset.univ : Finset (Fin T)).sup fun j => ((s (n + j.val) : ℝ) : EReal)) := by
  rw [sup_univ_fin_eq_sup_range T fun j => ((s (n + j) : ℝ) : EReal)]; exact runMax_add s n T

/-- `runMax_add` with the block's maximum written `⨆ j : Fin T, _`. -/
theorem runMax_add_iSup (s : ℕ → ℝ) (n T : ℕ) :
    runMax s (n + T) = max (runMax s n) (⨆ j : Fin T, ((s (n + j.val) : ℝ) : EReal)) := by
  rw [iSup_fin_eq_sup_range T fun j => ((s (n + j) : ℝ) : EReal)]; exact runMax_add s n T

/-- `runMax_add` with the block's maximum written as the fold of `max` from `⊥` over `Fin T`. -/
theorem runMax_add_fold (s : ℕ → ℝ) (n T : ℕ) :
    runMax s (n + T)
      = max (runMax s n)
          ((Finset.univ : Finset (Fin T)).fold max ⊥ fun j => ((s (n + j.val) : ℝ) : EReal)) := by
  rw [fold_max_bot_fin_eq_sup_range T fun j => ((s (n + j) : ℝ) : EReal)]; exact runMax_add s n T

/-- `runDen_add` with the block's sum taken over `Fin T`. -/
theorem runDen_add_fin (s : ℕ → ℝ) (n T : ℕ) :
    runDen s (n + T) = Ideal.exp (runMax s n - runMax s (n + T)) * runDen s n
      + ∑ j : Fin T, Ideal.exp ((s (n + j.val) : EReal) - runMax s (n + T)) := by
  rw [Fin.sum_univ_eq_sum_range fun j => Ideal.exp ((s (n + j) : EReal) - runMax s (n + T))]
  exact runDen_add s n T

/-- `runDen_add` with the block's sum taken over `Fin T` from the seed `0`. -/
theorem runDen_add_zero_fin (s : ℕ → ℝ) (n T : ℕ) :
    runDen s (n + T) = Ideal.exp (runMax s n - runMax s (n + T)) * runDen s n
      + (0 + ∑ j : Fin T, Ideal.exp ((s (n + j.val) : EReal) - runMax s (n + T))) := by
  rw [zero_add]; exact runDen_add_fin s n T

/-- `runNum_add` with the block's sum taken over `Fin T`. -/
theorem runNum_add_fin (s v : ℕ → ℝ) (n T : ℕ) :
    runNum s v (n + T) = Ideal.exp (runMax s n - runMax s (n + T)) * runNum s v n
      + ∑ j : Fin T, Ideal.exp ((s (n + j.val) : EReal) - runMax s (n + T)) * (v (n + j.val) : EReal) := by
  rw [Fin.sum_univ_eq_sum_range fun j =>
    Ideal.exp ((s (n + j) : EReal) - runMax s (n + T)) * (v (n + j) : EReal)]
  exact runNum_add s v n T

/-- `runNum_add` with the block's sum taken over `Fin T` from the seed `0`. -/
theorem runNum_add_zero_fin (s v : ℕ → ℝ) (n T : ℕ) :
    runNum s v (n + T) = Ideal.exp (runMax s n - runMax s (n + T)) * runNum s v n
      + (0 + ∑ j : Fin T,
          Ideal.exp ((s (n + j.val) : EReal) - runMax s (n + T)) * (v (n + j.val) : EReal)) := by
  rw [zero_add]; exact runNum_add_fin s v n T

/-! ### Normalising once at the end -/

/-- Dividing the accumulated weighted sum by the denominator equals summing the normalised weights
    times the values: `(∑ e_j v_j) / L = ∑ (e_j / L) v_j`. Valid because for a nonempty prefix every `e_j`,
    `v_j` is real and `L` is a positive real, so division by `L` is multiplication by the real `1 / L` and
    distributes over the finite sum. -/
theorem softmax_final (s v : ℕ → ℝ) {n : ℕ} (hn : 0 < n) :
    Ideal.div (runNum s v n) (runDen s n)
      = ∑ j ∈ Finset.range n,
          Ideal.div (Ideal.exp ((s j : EReal) - runMax s n)) (runDen s n) * (v j : EReal) := by
  obtain ⟨M, hM⟩ := runMax_real s hn
  obtain ⟨L, hL, hden⟩ := runDen_pos_real s hn
  rw [hden, runNum_of_max s v hM, hM]
  simp only [Ideal.div_coe hL.ne', exp_coe_sub, ← EReal.coe_mul]
  rw [← coe_finset_sum]
  congr 1
  rw [Finset.sum_mul]
  refine Finset.sum_congr rfl fun j _ => ?_
  ring

end LibOnlineSoftmax

end
-- ==== Proof.KI.AttnDefs.lean ====
import proofs.«159827_j24661702213738_2_alg».proof.Proof.KI.Region1
import proofs.«159827_j24661702213738_2_alg».proof.Proof.LibOnlineSoftmax
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.ValueIdx LibOnlineSoftmax

/-- The scaled score of query row `i` against key row `j`: their inner product over the 1024 features, times 1/32
    (the f32 word 0x3D000000, on the right). -/
def logitQK (Q Kx : S8192x1024.Idx → EReal) (i j : Fin 8192) : EReal :=
  (∑ a : Fin 1024, Q (ix2 i a) * Kx (ix2 j a)) * Ideal.ofBits .f32 0x3D000000#32

/-- Entry `(j, d)` of the value array. -/
def colX (X : S8192x1024.Idx → EReal) (j : Fin 8192) (d : Fin 1024) : EReal := X (ix2 j d)

/-- What the attention call leaves in its output: for query row `i 0`, the numerators accumulated over all 8192 keys, each
    divided by the accumulated denominator, contracted with row `i 1` of the value weights. `sQ i` is row `i`'s real
    logit sequence, `vX d` column `d`'s real value sequence. -/
def attnG (W : S1024x1024.Idx → EReal) (sQ : Fin 8192 → ℕ → ℝ) (vX : Fin 1024 → ℕ → ℝ) : S8192x1024.Idx → EReal :=
  fun i => ∑ d : Fin 1024, Ideal.div (runNum (sQ (i 0)) (vX d) 8192) (runDen (sQ (i 0)) 8192) * W (ix2 (i 1) d)

end Cert.KernelIdeal.Hand

end
-- ==== Proof.KI.Region1Pieces.lean ====
import proofs.«159827_j24661702213738_2_alg».proof.Proof.KI.Region1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The attention region: what each control case leaves in the accumulators and the output tile, as payloads

Every store and every load of the body is of a WHOLE block, so what a case leaves in a buffer is the payload of the
last store into it, applied to the contents the loads found: the carried contents of the three accumulators (cases B
and C), or — in case A, where the three resets come first — the reset payloads (the `-∞` column, the zero column, the
zero matrix). The query tile, the key tile, the value tile and the weight tile are `x0`, `x1`, `x2`, `x3`; the carried
running maximum, denominator and numerator are `xs0`, `xs1`, `xs2`. -/

/-- The zero offset of a rank-2 whole-block rectangle. -/
theorem hz_r1 : (![0, 0] : Fin 2 → Nat) = fun _ => 0 := funext fun a => by fin_cases a <;> rfl

/-- Case A (first key tile), the running maximum: the new maximum of the reset maximum and this tile's row maxima. -/
theorem sout1_A_0_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) :
    sout1_A_0 c i arg2 harg2 arg3 harg3 arg4 harg4 arg5 harg5 arg6 harg6 arg7 harg7 arg8 harg8 arg9 harg9 hc0 hc1 x0 x1 x2 x3
      = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case A, the running denominator: the reset denominator rescaled, plus this tile's row sums of exponentials. -/
theorem sout1_A_1_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) :
    sout1_A_1 c i arg2 harg2 arg3 harg3 arg4 harg4 arg5 harg5 arg6 harg6 arg7 harg7 arg8 harg8 arg9 harg9 hc0 hc1 x0 x1 x2 x3
      = k1_pay11 x0 x1 k1_pay4 k1_pay4 k1_pay5 := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case A, the running numerator: the reset numerator rescaled, plus this tile's exponentials times the value tile. -/
theorem sout1_A_2_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1024x1024 .bf16) (x1 : Vec F S512x1024 .bf16) (x2 : Vec F S512x1024 .bf16) (x3 : Vec F S1024x1024 .bf16) :
    sout1_A_2 c i arg2 harg2 arg3 harg3 arg4 harg4 arg5 harg5 arg6 harg6 arg7 harg7 arg8 harg8 arg9 harg9 hc0 hc1 x0 x1 x2 x3
      = k1_pay1 (k1_pay9 x0 x1 k1_pay4 k1_pay4) (k1_pay12 x0 x1 x2 k1_pay4) k1_pay6 := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1024) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case B (a middle key tile), the running maximum: the maximum of the carried maximum and this tile's row maxima. -/
theorem sout1_B_0_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    sout1_B_0 c i arg2 harg2 arg3 harg3 arg4 harg4 arg5 harg5 arg6 harg6 arg7 harg7 arg8 harg8 arg9 harg9 hc0 hc1 x0 x1 x2 x3 xs0 xs1 xs2
      = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x1) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case B, the running denominator: the carried denominator rescaled, plus this tile's row sums of exponentials. -/
theorem sout1_B_1_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    sout1_B_1 c i arg2 harg2 arg3 harg3 arg4 harg4 arg5 harg5 arg6 harg6 arg7 harg7 arg8 harg8 arg9 harg9 hc0 hc1 x0 x1 x2 x3 xs0 xs1 xs2
      = k1_pay11 x0 x1 xs0 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x1) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case B, the running numerator: the carried numerator rescaled, plus this tile's exponentials times the value tile. -/
theorem sout1_B_2_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    sout1_B_2 c i arg2 harg2 arg3 harg3 arg4 harg4 arg5 harg5 arg6 harg6 arg7 harg7 arg8 harg8 arg9 harg9 hc0 hc1 x0 x1 x2 x3 xs0 xs1 xs2
      = k1_pay1 (k1_pay9 x0 x1 xs0 xs0) (k1_pay12 x0 x1 x2 xs0) xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x1024) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case C (the last key tile), the running maximum: as in case B. -/
theorem sout1_C_0_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    sout1_C_0 c i arg2 harg2 arg3 harg3 arg4 harg4 arg5 harg5 arg6 harg6 arg7 harg7 arg8 harg8 arg9 harg9 hc0 hc1 x0 x1 x2 x3 xs0 xs1 xs2
      = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case C, the running denominator: as in case B. -/
theorem sout1_C_1_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    sout1_C_1 c i arg2 harg2 arg3 harg3 arg4 harg4 arg5 harg5 arg6 harg6 arg7 harg7 arg8 harg8 arg9 harg9 hc0 hc1 x0 x1 x2 x3 xs0 xs1 xs2
      = k1_pay11 x0 x1 xs0 xs0 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case C, the running numerator: as in case B. -/
theorem sout1_C_2_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    sout1_C_2 c i arg2 harg2 arg3 harg3 arg4 harg4 arg5 harg5 arg6 harg6 arg7 harg7 arg8 harg8 arg9 harg9 hc0 hc1 x0 x1 x2 x3 xs0 xs1 xs2
      = k1_pay1 (k1_pay9 x0 x1 xs0 xs0) (k1_pay12 x0 x1 x2 xs0) xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1024) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

/-- Case C, the output tile: the numerator just stored divided by the denominator just stored, times the weight tile. -/
theorem out1_C_4_eq (c : Dev nD) (i : grid1.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1024x1024 .bf16) (x1 : Vec F S512x1024 .bf16) (x2 : Vec F S512x1024 .bf16) (x3 : Vec F S1024x1024 .bf16) (xs0 : Vec F S1024x1 .f32) (xs1 : Vec F S1024x1 .f32) (xs2 : Vec F S1024x1024 .f32) :
    out1_C_4 c i arg2 harg2 arg3 harg3 arg4 harg4 arg5 harg5 arg6 harg6 arg7 harg7 arg8 harg8 arg9 harg9 hc0 hc1 x0 x1 x2 x3 xs0 xs1 xs2
      = k1_pay3 (k1_pay1 (k1_pay9 x0 x1 xs0 xs0) (k1_pay12 x0 x1 x2 xs0) xs2) (k1_pay11 x0 x1 xs0 xs0 xs1) x3 := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1024) hz_r1]
  simp only [View.readCov_unit_zero (S := S1024x1) _ hz_r1, View.readCov_unit_zero (S := S1024x1024) _ hz_r1, View.readAt_eq_ld, harg2.read_unread, harg3.read_unread, harg4.read_unread, harg5.read_unread, harg7.read_unread, harg8.read_unread, harg9.read_unread, View.ld_unit_zero (S := S1024x1024) hz_r1, View.ld_unit_zero (S := S512x1024) hz_r1, View.ld_unit_zero (S := S1024x1) hz_r1]

end Cert.KernelIdeal.Hand

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.KI.Region1Reads.lean ====
import proofs.«159827_j24661702213738_2_alg».proof.Proof.Gen.KernelIdeal.Skeleton
import proofs.«159827_j24661702213738_2_alg».proof.Proof.LibMaxReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! # The attention region's payloads read at an index, at the extended reals

Rows of the query tile are `r : Fin 1024`, keys of the key/value tile `j : Fin 512`, features `d d' : Fin 1024`. -/

/-! ## Layout: a column `[a] → [a, 1]`, and a column broadcast along rows `[a, 1] → [a, b]` -/

/-- A vector reshaped to a one-column matrix reads, at `(p, q)`, the vector at `p`. -/
theorem column_cast_apply {α : Type} {a : ℕ} (v : (⟨1, ![a]⟩ : Shape).Idx → α)
    (h : (⟨1, ![a]⟩ : Shape).ShapeCasts ⟨2, ![a, 1]⟩) (p : Fin a) (q : Fin 1) :
    shapeCast ⟨2, ![a, 1]⟩ v h (ix2 p q) = v (ix1 p) := by
  refine shapeCast_apply v h (ix2 p q) (ix1 p) ?_
  rw [Shape.rowMajor_val_one, Shape.rowMajor_val_two]
  show p.val = p.val * 1 + q.val
  have := q.isLt
  omega

/-- A one-column matrix broadcast to `b` columns reads, at `(p, c)`, the column at `p`. -/
theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reset values and the pointwise payloads -/

/-- The reset running maximum is `-∞` everywhere. -/
theorem k1_pay4_apply (i : S1024x1.Idx) : k1_pay4 (F := Ideal) i = (⊥ : EReal) := by
  unfold k1_pay4
  rw [shapeCast_self]
  exact Cert.Lib.MaxReduce.ofBits_neg_inf_f32

/-- The reset running denominator is `0` everywhere. -/
theorem k1_pay5_apply (i : S1024x1.Idx) : k1_pay5 (F := Ideal) i = (0 : EReal) := by
  unfold k1_pay5
  rw [shapeCast_self]
  exact Ideal.ofBits_zero_f32

/-- The reset running numerator is `0` everywhere. -/
theorem k1_pay6_apply (i : S1024x1024.Idx) : k1_pay6 (F := Ideal) i = (0 : EReal) := by
  unfold k1_pay6
  rw [shapeCast_self]
  exact Ideal.ofBits_zero_f32

/-- The stored running maximum is the new maximum itself (a reshape to the same shape). -/
theorem k1_pay2_eq {F : FTy → Type} [FloatOps F] (v : FVec F S1024x1 .f32) : k1_pay2 v = v := by
  unfold k1_pay2
  exact shapeCast_self _ _

/-- The rescaling factor `exp (m' - m_new)`, entry by entry. -/
theorem k1_pay9_apply (x0 : FVec Ideal S1024x1024 .bf16) (x1 : FVec Ideal S512x1024 .bf16)
    (m m' : FVec Ideal S1024x1 .f32) (i : S1024x1.Idx) :
    k1_pay9 (F := Ideal) x0 x1 m m' i = Ideal.exp (m' i - k1_pay8 (F := Ideal) x0 x1 m i) := rfl

/-- The new running numerator: the old one rescaled row by row, plus this tile's contribution. -/
theorem k1_pay1_apply (a : FVec Ideal S1024x1 .f32) (pv acc : FVec Ideal S1024x1024 .f32)
    (r : Fin 1024) (d : Fin 1024) :
    k1_pay1 (F := Ideal) a pv acc (ix2 r d) = a (ix2 r (0 : Fin 1)) * acc (ix2 r d) + pv (ix2 r d) := by
  unfold k1_pay1
  rw [shapeCast_self]
  show broadcastTo S1024x1024 a broadcasts_S1024x1_S1024x1024 (ix2 r d) * acc (ix2 r d) + pv (ix2 r d) = _
  rw [column_broadcast_apply a broadcasts_S1024x1_S1024x1024 r d]

/-! ## The three matrix products, each a sum over its one contracted axis -/

theorem mm_qk_lhs_free (i : S1024x512.Idx) (c : dot_S1024x1024_S512x1024_S1024x512_1_1_0_0_n_n.contr.Idx) : (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem mm_qk_lhs_contr (i : S1024x512.Idx) (c : dot_S1024x1024_S512x1024_S1024x512_1_1_0_0_n_n.contr.Idx) : (dot_S1024x1024_S512x1024_S1024x512_1_1_0_0_n_n.lhsIdx i c 1).val = (c ⟨0, by decide⟩).val :=
  dot_S1024x1024_S512x1024_S1024x512_1_1_0_0_n_n.lhsIdx_val_of_single rfl i c
theorem mm_qk_rhs_free (i : S1024x512.Idx) (c : dot_S1024x1024_S512x1024_S1024x512_1_1_0_0_n_n.contr.Idx) : (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem mm_qk_rhs_contr (i : S1024x512.Idx) (c : dot_S1024x1024_S512x1024_S1024x512_1_1_0_0_n_n.contr.Idx) : (dot_S1024x1024_S512x1024_S1024x512_1_1_0_0_n_n.rhsIdx i c 1).val = (c ⟨0, by decide⟩).val :=
  dot_S1024x1024_S512x1024_S1024x512_1_1_0_0_n_n.rhsIdx_val_of_single rfl i c

/-- Query tile times key tile transposed: entry `(p, q)` is the sum over features `k` of `lhs (p, k) * rhs (q, k)`. -/
theorem mm_qk_apply (lhs : FVec Ideal S1024x1024 .bf16) (rhs : FVec Ideal S512x1024 .bf16) (p : Fin 1024) (q : Fin 512) :
    matmul dot_S1024x1024_S512x1024_S1024x512_1_1_0_0_n_n none lhs rhs (constant (F := Ideal) S1024x512 .f32 0x00000000#32) (ix2 p q)
      = ∑ k : Fin 1024, lhs (ix2 p k) * rhs (ix2 q k) := by
  refine (Ideal.matmul_constant_zero_apply dot_S1024x1024_S512x1024_S1024x512_1_1_0_0_n_n none lhs rhs (ix2 p q)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact mm_qk_lhs_free _ _
    | ⟨1, _⟩ => exact (mm_qk_lhs_contr _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact mm_qk_rhs_free _ _
    | ⟨1, _⟩ => exact (mm_qk_rhs_contr _ _).trans hk)
  rw [el, er]

theorem mm_pv_lhs_free (i : S1024x1024.Idx) (c : dot_S1024x512_S512x1024_S1024x1024_1_0_0_1_n_n.contr.Idx) : (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem mm_pv_lhs_contr (i : S1024x1024.Idx) (c : dot_S1024x512_S512x1024_S1024x1024_1_0_0_1_n_n.contr.Idx) : (dot_S1024x512_S512x1024_S1024x1024_1_0_0_1_n_n.lhsIdx i c 1).val = (c ⟨0, by decide⟩).val :=
  dot_S1024x512_S512x1024_S1024x1024_1_0_0_1_n_n.lhsIdx_val_of_single rfl i c
theorem mm_pv_rhs_free (i : S1024x1024.Idx) (c : dot_S1024x512_S512x1024_S1024x1024_1_0_0_1_n_n.contr.Idx) : (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl
theorem mm_pv_rhs_contr (i : S1024x1024.Idx) (c : dot_S1024x512_S512x1024_S1024x1024_1_0_0_1_n_n.contr.Idx) : (dot_S1024x512_S512x1024_S1024x1024_1_0_0_1_n_n.rhsIdx i c 0).val = (c ⟨0, by decide⟩).val :=
  dot_S1024x512_S512x1024_S1024x1024_1_0_0_1_n_n.rhsIdx_val_of_single rfl i c

/-- Weights times value tile: entry `(p, q)` is the sum over keys `k` of `lhs (p, k) * rhs (k, q)`. -/
theorem mm_pv_apply (lhs : FVec Ideal S1024x512 .bf16) (rhs : FVec Ideal S512x1024 .bf16) (p : Fin 1024) (q : Fin 1024) :
    matmul dot_S1024x512_S512x1024_S1024x1024_1_0_0_1_n_n none lhs rhs (constant (F := Ideal) S1024x1024 .f32 0x00000000#32) (ix2 p q)
      = ∑ k : Fin 512, lhs (ix2 p k) * rhs (ix2 k q) := by
  refine (Ideal.matmul_constant_zero_apply dot_S1024x512_S512x1024_S1024x1024_1_0_0_1_n_n none lhs rhs (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact mm_pv_lhs_free _ _
    | ⟨1, _⟩ => exact (mm_pv_lhs_contr _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨1, _⟩ => exact mm_pv_rhs_free _ _
    | ⟨0, _⟩ => exact (mm_pv_rhs_contr _ _).trans hk)
  rw [el, er]

theorem mm_ow_lhs_free (i : S1024x1024.Idx) (c : dot_S1024x1024_S1024x1024_S1024x1024_1_1_0_0_n_n.contr.Idx) : (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem mm_ow_lhs_contr (i : S1024x1024.Idx) (c : dot_S1024x1024_S1024x1024_S1024x1024_1_1_0_0_n_n.contr.Idx) : (dot_S1024x1024_S1024x1024_S1024x1024_1_1_0_0_n_n.lhsIdx i c 1).val = (c ⟨0, by decide⟩).val :=
  dot_S1024x1024_S1024x1024_S1024x1024_1_1_0_0_n_n.lhsIdx_val_of_single rfl i c
theorem mm_ow_rhs_free (i : S1024x1024.Idx) (c : dot_S1024x1024_S1024x1024_S1024x1024_1_1_0_0_n_n.contr.Idx) : (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem mm_ow_rhs_contr (i : S1024x1024.Idx) (c : dot_S1024x1024_S1024x1024_S1024x1024_1_1_0_0_n_n.contr.Idx) : (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-- Normalised numerator times the weight tile transposed: entry `(p, q)` is the sum over features `k` of `lhs (p, k) * rhs (q, k)`. -/
theorem mm_ow_apply (lhs : FVec Ideal S1024x1024 .bf16) (rhs : FVec Ideal S1024x1024 .bf16) (p : Fin 1024) (q : Fin 1024) :
    matmul dot_S1024x1024_S1024x1024_S1024x1024_1_1_0_0_n_n none lhs rhs (constant (F := Ideal) S1024x1024 .f32 0x00000000#32) (ix2 p q)
      = ∑ k : Fin 1024, lhs (ix2 p k) * rhs (ix2 q k) := by
  refine (Ideal.matmul_constant_zero_apply dot_S1024x1024_S1024x1024_S1024x1024_1_1_0_0_n_n none lhs rhs (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact mm_ow_lhs_free _ _
    | ⟨1, _⟩ => exact (mm_ow_lhs_contr _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact mm_ow_rhs_free _ _
    | ⟨1, _⟩ => exact (mm_ow_rhs_contr _ _).trans hk)
  rw [el, er]

/-! ## The two lane reductions over the keys of the tile -/

/-- The index of row `r` with the key coordinate `k` put back. -/
theorem lift_keys (r : Fin 1024) (k : Fin 512) : reduces_S1024x512_S1024.lift (ix1 r) k = ix2 r k :=
  funext fun c => Fin.ext (by
    match c with
    | ⟨0, _⟩ => rfl
    | ⟨1, _⟩ => rfl)

/-- A row's maximum over the tile's keys, started from `-∞`: the supremum of the row. -/
theorem rowmax_apply (src : FVec Ideal S1024x512 .f32) (r : Fin 1024) :
    multiReduction (F := Ideal) .maximumf [1] S1024 src 0xFF800000#32 reduces_S1024x512_S1024 (.inl rfl) rfl (ix1 r)
      = ⨆ k : Fin 512, src (ix2 r k) := by
  refine (Ideal.multiReduction_maximumf_single src 0xFF800000#32 reduces_S1024x512_S1024 (.inl rfl) rfl (ix1 r)).trans ?_
  show (Finset.univ : Finset (Fin 512)).fold max (Ideal.ofBits .f32 0xFF800000#32)
    (fun k => src (reduces_S1024x512_S1024.lift (ix1 r) k)) = _
  rw [Cert.Lib.MaxReduce.ofBits_neg_inf_f32]
  refine (Cert.Lib.MaxReduce.fold_max_bot_eq_iSup (K := 512)
    (fun k => src (reduces_S1024x512_S1024.lift (ix1 r) k))).trans ?_
  exact iSup_congr fun k => congrArg src (lift_keys r k)

/-- A row's sum over the tile's keys. -/
theorem rowsum_apply (src : FVec Ideal S1024x512 .f32) (r : Fin 1024) :
    multiReduction (F := Ideal) .add [1] S1024 src 0x00000000#32 reduces_S1024x512_S1024 (.inl rfl) rfl (ix1 r)
      = ∑ k : Fin 512, src (ix2 r k) := by
  refine (Ideal.multiReduction_add_single src 0x00000000#32 reduces_S1024x512_S1024 (.inl rfl) rfl (ix1 r)).trans ?_
  show ∑ k : Fin 512, src (reduces_S1024x512_S1024.lift (ix1 r) k) = _
  exact Finset.sum_congr rfl fun k _ => congrArg src (lift_keys r k)

/-! ## The payloads of one key tile -/

/-- The scaled logits of the tile: query row `r` against key `j`, times the scale word `0x3D000000` (`1/32`). -/
theorem k1_pay7_apply (x0 : FVec Ideal S1024x1024 .bf16) (x1 : FVec Ideal S512x1024 .bf16) (r : Fin 1024) (j : Fin 512) :
    k1_pay7 (F := Ideal) x0 x1 (ix2 r j)
      = (∑ a : Fin 1024, x0 (ix2 r a) * x1 (ix2 j a)) * Ideal.ofBits .f32 0x3D000000#32 := by
  unfold k1_pay7
  simp only [shapeCast_self]
  exact congrArg (fun t => t * Ideal.ofBits .f32 0x3D000000#32) (mm_qk_apply x0 x1 r j)

/-- The new running maximum of row `r`: the old one against the supremum of the tile's logits of that row. -/
theorem k1_pay8_apply (x0 : FVec Ideal S1024x1024 .bf16) (x1 : FVec Ideal S512x1024 .bf16) (m : FVec Ideal S1024x1 .f32)
    (r : Fin 1024) :
    k1_pay8 (F := Ideal) x0 x1 m (ix2 r (0 : Fin 1))
      = max (m (ix2 r (0 : Fin 1))) (⨆ j : Fin 512, k1_pay7 (F := Ideal) x0 x1 (ix2 r j)) := by
  unfold k1_pay8
  exact congrArg (max (m (ix2 r (0 : Fin 1))))
    ((column_cast_apply _ shapeCasts_S1024_S1024x1 r (0 : Fin 1)).trans (rowmax_apply (k1_pay7 (F := Ideal) x0 x1) r))

/-- The tile's unnormalised weights: `exp (logit - new maximum of the row)`. -/
theorem k1_pay10_apply (x0 : FVec Ideal S1024x1024 .bf16) (x1 : FVec Ideal S512x1024 .bf16) (m : FVec Ideal S1024x1 .f32)
    (r : Fin 1024) (j : Fin 512) :
    k1_pay10 (F := Ideal) x0 x1 m (ix2 r j)
      = Ideal.exp (k1_pay7 (F := Ideal) x0 x1 (ix2 r j) - k1_pay8 (F := Ideal) x0 x1 m (ix2 r (0 : Fin 1))) := by
  unfold k1_pay10
  exact congrArg (fun t => Ideal.exp (k1_pay7 (F := Ideal) x0 x1 (ix2 r j) - t))
    (column_broadcast_apply (k1_pay8 (F := Ideal) x0 x1 m) broadcasts_S1024x1_S1024x512 r j)

/-- The new running denominator of row `r`: the old one rescaled, plus the row sum of the tile's weights. -/
theorem k1_pay11_apply (x0 : FVec Ideal S1024x1024 .bf16) (x1 : FVec Ideal S512x1024 .bf16)
    (m m' l : FVec Ideal S1024x1 .f32) (r : Fin 1024) :
    k1_pay11 (F := Ideal) x0 x1 m m' l (ix2 r (0 : Fin 1))
      = k1_pay9 (F := Ideal) x0 x1 m m' (ix2 r (0 : Fin 1)) * l (ix2 r (0 : Fin 1))
        + ∑ j : Fin 512, k1_pay10 (F := Ideal) x0 x1 m (ix2 r j) := by
  unfold k1_pay11
  simp only [shapeCast_self]
  exact congrArg (fun t => k1_pay9 (F := Ideal) x0 x1 m m' (ix2 r (0 : Fin 1)) * l (ix2 r (0 : Fin 1)) + t)
    ((column_cast_apply _ shapeCasts_S1024_S1024x1 r (0 : Fin 1)).trans (rowsum_apply (k1_pay10 (F := Ideal) x0 x1 m) r))

/-- The tile's contribution to the numerator: the weights of row `r` against column `d` of the value tile. -/
theorem k1_pay12_apply (x0 : FVec Ideal S1024x1024 .bf16) (x1 x2 : FVec Ideal S512x1024 .bf16)
    (m : FVec Ideal S1024x1 .f32) (r d : Fin 1024) :
    k1_pay12 (F := Ideal) x0 x1 x2 m (ix2 r d)
      = ∑ j : Fin 512, k1_pay10 (F := Ideal) x0 x1 m (ix2 r j) * x2 (ix2 j d) := by
  unfold k1_pay12
  simp only [shapeCast_self]
  exact mm_pv_apply (k1_pay10 (F := Ideal) x0 x1 m) x2 r d

/-- The output tile: the numerator divided row by row by the denominator, against row `d'` of the weight tile. -/
theorem k1_pay3_apply (acc : FVec Ideal S1024x1024 .f32) (l : FVec Ideal S1024x1 .f32) (w : FVec Ideal S1024x1024 .bf16)
    (r d' : Fin 1024) :
    k1_pay3 (F := Ideal) acc l w (ix2 r d')
      = ∑ d : Fin 1024, Ideal.div (acc (ix2 r d)) (l (ix2 r (0 : Fin 1))) * w (ix2 d' d) := by
  unfold k1_pay3
  simp only [shapeCast_self]
  refine (mm_ow_apply (divf (F := Ideal) acc (broadcastTo S1024x1024 l broadcasts_S1024x1_S1024x1024)) w r d').trans ?_
  refine Finset.sum_congr rfl fun d _ => ?_
  exact congrArg (fun t => Ideal.div (acc (ix2 r d)) t * w (ix2 d' d))
    (column_broadcast_apply l broadcasts_S1024x1_S1024x1024 r d)

end Cert.KernelIdeal.Hand

end
-- ==== Proof.KI.Region1Blocks.lean ====
/- The attention region's blocks, read at the extended reals, at the buffer contents `V` the region is entered with. The
   grid is 8 row tiles by 16 key tiles walked row-major: each input window's block at a point is a band of rows of its
   array; the output tile is written back at the last key tile of each row tile, and those eight tiles cover the output.
   So the array the region leaves is any function whose row tiles are what the body leaves there. -/
import proofs.«159827_j24661702213738_2_alg».proof.Proof.KI.Region1
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The index maps over the grid -/

/-- At point `t` — row tile t / 16, key tile t % 16 — the queries' and the output's windows are on row block t / 16,
    the keys' and the values' windows on row block t % 16, the last projection's weights on their whole array; every
    window spans all columns. -/
theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = 0 ∧ win1_3.index t (1 : Fin 2) = 0
    ∧ win1_4.index t (0 : Fin 2) = t.val / 16 ∧ win1_4.index t (1 : Fin 2) = 0 :=
  (by decide +kernel : ∀ t : Fin grid1.N, _)

/-! ## Each input block as rows of its array -/

/-- The queries' block at point `t` is rows 1024 (t / 16) … of their array. -/
theorem iblk1_0_apply (c : Dev nD) (t : Fin cfg1.N) (y : S1024x1024.Idx) (i : S8192x1024.Idx)
    (h0 : (i 0).val = t.val / 16 * 1024 + (y 0).val) (h1 : (i 1).val = (y 1).val) :
    (iblk1 V c 0 t : Vec Ideal S1024x1024 .bf16) y = (V c main_v5 : S8192x1024.Idx → EReal) i := by
  obtain ⟨e0, e1, -⟩ := idx_facts1 t
  unfold iblk1
  rw [View.read_apply]
  show V c main_v5 _ = V c main_v5 _
  refine congrArg (V c main_v5) ?_
  funext a
  apply Fin.ext
  match a with
  | ⟨0, _⟩ => show win1_0.index t (0 : Fin 2) * 1024 + 1 * (y 0).val = (i 0).val; rw [e0, h0]; omega
  | ⟨1, _⟩ => show win1_0.index t (1 : Fin 2) * 1024 + 1 * (y 1).val = (i 1).val; rw [e1, h1]; omega

/-- The keys' block at point `t` is rows 512 (t % 16) … of their array. -/
theorem iblk1_1_apply (c : Dev nD) (t : Fin cfg1.N) (y : S512x1024.Idx) (i : S8192x1024.Idx)
    (h0 : (i 0).val = t.val % 16 * 512 + (y 0).val) (h1 : (i 1).val = (y 1).val) :
    (iblk1 V c 1 t : Vec Ideal S512x1024 .bf16) y = (V c main_v6 : S8192x1024.Idx → EReal) i := by
  obtain ⟨-, -, e2, e3, -⟩ := idx_facts1 t
  unfold iblk1
  rw [View.read_apply]
  show V c main_v6 _ = V c main_v6 _
  refine congrArg (V c main_v6) ?_
  funext a
  apply Fin.ext
  match a with
  | ⟨0, _⟩ => show win1_1.index t (0 : Fin 2) * 512 + 1 * (y 0).val = (i 0).val; rw [e2, h0]; omega
  | ⟨1, _⟩ => show win1_1.index t (1 : Fin 2) * 1024 + 1 * (y 1).val = (i 1).val; rw [e3, h1]; omega

/-- The values' block at point `t` is rows 512 (t % 16) … of the activations. -/
theorem iblk1_2_apply (c : Dev nD) (t : Fin cfg1.N) (y : S512x1024.Idx) (i : S8192x1024.Idx)
    (h0 : (i 0).val = t.val % 16 * 512 + (y 0).val) (h1 : (i 1).val = (y 1).val) :
    (iblk1 V c 2 t : Vec Ideal S512x1024 .bf16) y = (V c main_v0 : S8192x1024.Idx → EReal) i := by
  obtain ⟨-, -, -, -, e4, e5, -⟩ := idx_facts1 t
  unfold iblk1
  rw [View.read_apply]
  show V c main_v0 _ = V c main_v0 _
  refine congrArg (V c main_v0) ?_
  funext a
  apply Fin.ext
  match a with
  | ⟨0, _⟩ => show win1_2.index t (0 : Fin 2) * 512 + 1 * (y 0).val = (i 0).val; rw [e4, h0]; omega
  | ⟨1, _⟩ => show win1_2.index t (1 : Fin 2) * 1024 + 1 * (y 1).val = (i 1).val; rw [e5, h1]; omega

/-- The last projection's weights: the block at every point is their whole array. -/
theorem iblk1_3_apply (c : Dev nD) (t : Fin cfg1.N) (y : S1024x1024.Idx) (i : S1024x1024.Idx)
    (h0 : (i 0).val = (y 0).val) (h1 : (i 1).val = (y 1).val) :
    (iblk1 V c 3 t : Vec Ideal S1024x1024 .bf16) y = (V c main_v3 : S1024x1024.Idx → EReal) i := by
  obtain ⟨-, -, -, -, -, -, e6, e7, -⟩ := idx_facts1 t
  unfold iblk1
  rw [View.read_apply]
  show V c main_v3 _ = V c main_v3 _
  refine congrArg (V c main_v3) ?_
  funext a
  apply Fin.ext
  match a with
  | ⟨0, _⟩ => show win1_3.index t (0 : Fin 2) * 1024 + 1 * (y 0).val = (i 0).val; rw [e6, h0]; omega
  | ⟨1, _⟩ => show win1_3.index t (1 : Fin 2) * 1024 + 1 * (y 1).val = (i 1).val; rw [e7, h1]; omega

/-! ## What a point writes back, and the array the region leaves -/

/-- What point `t` writes back is the moved part of what the body left in the output tile there. -/
theorem flushed1_4_eq (c : Dev nD) (t : Fin cfg1.N) :
    (dat1 (F := Ideal) V c).flushed 4 t = (cfg1.win 4).cut (grid1.coords t) ((outsAt1 V c t.val t.isLt).1) := by
  show (cfg1.win 4).cut (grid1.coords t) ((dat1 V c).after 4 t) = _
  rw [after1_4]

/-- The output's blocks lie inside the array, so the moved part is the whole tile. -/
theorem flushed1_4_eq' (c : Dev nD) (t : Fin cfg1.N) :
    (dat1 (F := Ideal) V c).flushed 4 t = (outsAt1 V c t.val t.isLt).1 := by
  rw [flushed1_4_eq]; rfl

/-- An index of the output array is in point `t`'s block iff each coordinate is in the block's range on its axis. -/
theorem mem_blk1_4 (t : Fin cfg1.N) (i : S8192x1024.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v7).slice (win1_4.rect t)).set ↔ _
  rw [View.set_slice_whole, Rect.mem_set_unit]
  exact Iff.rfl

/-- Row `r` of the output is written back at the last key tile of row tile r / 1024, the point 16 (r / 1024) + 15: the
    eight row tiles cover the array. -/
theorem cover1 (i : S8192x1024.Idx) : ∃ t : Fin cfg1.N, (cfg1.win 4).flush t = true ∧ i ∈ ((cfg1.win 4).blk t).view.set := by
  have hi0 : (i 0).val < 8192 := idx2_lt0 i
  have hi1 : (i 1).val < 1024 := idx2_lt1 i
  have hN : cfg1.N = 128 := N_1
  have ht : 16 * ((i 0).val / 1024) + 15 < cfg1.N := by rw [hN]; omega
  obtain ⟨-, -, -, -, -, -, -, -, e8, e9⟩ := idx_facts1 ⟨16 * ((i 0).val / 1024) + 15, ht⟩
  refine ⟨⟨16 * ((i 0).val / 1024) + 15, ht⟩, (flush1_4 _).mpr (by show (16 * ((i 0).val / 1024) + 15) % 16 = 15; omega), ?_⟩
  rw [mem_blk1_4]
  intro a
  match a with
  | ⟨0, _⟩ =>
    show win1_4.index ⟨16 * ((i 0).val / 1024) + 15, ht⟩ (0 : Fin 2) * 1024 ≤ (i 0).val ∧ (i 0).val < win1_4.index ⟨16 * ((i 0).val / 1024) + 15, ht⟩ (0 : Fin 2) * 1024 + 1024
    rw [e8]; show (16 * ((i 0).val / 1024) + 15) / 16 * 1024 ≤ (i 0).val ∧ (i 0).val < (16 * ((i 0).val / 1024) + 15) / 16 * 1024 + 1024; omega
  | ⟨1, _⟩ =>
    show win1_4.index ⟨16 * ((i 0).val / 1024) + 15, ht⟩ (1 : Fin 2) * 1024 ≤ (i 1).val ∧ (i 1).val < win1_4.index ⟨16 * ((i 0).val / 1024) + 15, ht⟩ (1 : Fin 2) * 1024 + 1024
    rw [e9]; omega

/-- THE ARRAY the attention region leaves in its output is any function `G` whose blocks the write-backs write: only
    the points that write back matter, and their blocks cover the array. -/
theorem arr1_final_of (c : Dev nD) (G : S8192x1024.Idx → EReal)
    (hfl : ∀ t : Fin cfg1.N, (cfg1.win 4).flush t = true →
      (dat1 (F := Ideal) V c).flushed 4 t = ((cfg1.win 4).blk t).view.read (Elt Ideal) G) :
    (dat1 (F := Ideal) V c).arrAt 4 cfg1.N = G :=
  (dat1 (F := Ideal) V c).arrAt_eq_of_cover 4 G hfl cover1

/-- A tile that agrees with `G` entry by entry, read at the rows `row + r` of the array. -/
theorem tile_entry (X : Vec Ideal S1024x1024 .f32) (G : S8192x1024.Idx → EReal) (row : Nat)
    (h : ∀ (r d' : Fin 1024) (i : S8192x1024.Idx), (i 0).val = row + r.val → (i 1).val = d'.val → X (ix2 r d') = G i)
    (j : S1024x1024.Idx) (i : S8192x1024.Idx) (h0 : (i 0).val = row + (j 0).val) (h1 : (i 1).val = (j 1).val) : X j = G i := by
  obtain ⟨p, q, rfl⟩ : ∃ (p q : Fin 1024), j = ix2 p q := ⟨j 0, j 1, eq_ix2 j⟩
  exact h p q i h0 h1

/-- So a point that writes back writes block `t` of `G` as soon as the tile the body left agrees with `G` row by row:
    entry (r, d') of the tile is the array's entry at row 1024 (t / 16) + r, column d'. -/
theorem tile_of_rows (c : Dev nD) (t : Fin cfg1.N) (ht : t.val % 16 = 15) (G : S8192x1024.Idx → EReal)
    (h : ∀ (r d' : Fin 1024) (i : S8192x1024.Idx), (i 0).val = t.val / 16 * 1024 + r.val → (i 1).val = d'.val →
      (outsAt1 V c t.val t.isLt).1 (ix2 r d') = G i) :
    (dat1 (F := Ideal) V c).flushed 4 t = ((cfg1.win 4).blk t).view.read (Elt Ideal) G := by
  rw [flushed1_4_eq']
  obtain ⟨-, -, -, -, -, -, -, -, e8, e9⟩ := idx_facts1 t
  funext j
  show (outsAt1 V c t.val t.isLt).1 j = G (((cfg1.win 4).blk t).view.emb j)
  refine tile_entry _ G _ h j _ ?_ ?_
  · show win1_4.index t (0 : Fin 2) * 1024 + 1 * (j 0).val = t.val / 16 * 1024 + (j 0).val; rw [e8]; omega
  · show win1_4.index t (1 : Fin 2) * 1024 + 1 * (j 1).val = (j 1).val; rw [e9]; omega

end Cert.KernelIdeal.Hand

end
-- ==== Proof.OnlineStep.lean ====
import proofs.«159827_j24661702213738_2_alg».proof.Proof.LibOnlineSoftmax

noncomputable section

namespace Cert.OnlineStep

open Idealize.ShloMosaic LibOnlineSoftmax

/-- ONE KEY TILE of the streaming softmax, for one query row. If the running maximum, denominator and numerators stand
    at the first `n0` logits `s` (values `v d`), and the tile's `T` logits and value rows are the next `T` entries of
    those sequences, then the updated maximum `m' = max m (sup of the tile)`, the rescaled denominator
    `exp (m - m') * l + Σ exp (tile - m')` and the rescaled numerators `exp (m - m') * acc d + Σ exp (tile - m') * value`
    stand at the first `n0 + T` entries. At `n0 = 0` the old maximum is `⊥`, the rescaling factor is `exp ⊥ = 0`, and
    `0 * 0 = 0`: the same statement covers the first tile. -/
theorem step {T : ℕ} (s : ℕ → ℝ) (v : Fin 1024 → ℕ → ℝ) (n0 : ℕ) (m l : EReal) (acc : Fin 1024 → EReal)
    (blk : Fin T → EReal) (xv : Fin T → Fin 1024 → EReal)
    (hm : m = runMax s n0) (hl : l = runDen s n0) (hacc : ∀ d, acc d = runNum s (v d) n0)
    (hblk : ∀ j : Fin T, blk j = ((s (n0 + j.val) : ℝ) : EReal)) (hxv : ∀ (j : Fin T) (d : Fin 1024), xv j d = ((v d (n0 + j.val) : ℝ) : EReal)) :
    max m (⨆ j : Fin T, blk j) = runMax s (n0 + T)
    ∧ Ideal.exp (m - max m (⨆ j : Fin T, blk j)) * l + ∑ j : Fin T, Ideal.exp (blk j - max m (⨆ j : Fin T, blk j)) = runDen s (n0 + T)
    ∧ ∀ d : Fin 1024, Ideal.exp (m - max m (⨆ j : Fin T, blk j)) * acc d + ∑ j : Fin T, Ideal.exp (blk j - max m (⨆ j : Fin T, blk j)) * xv j d
        = runNum s (v d) (n0 + T) := by
  have hM : max m (⨆ j : Fin T, blk j) = runMax s (n0 + T) := by
    rw [runMax_add_iSup s n0 T, hm]
    exact congrArg (max (runMax s n0)) (iSup_congr hblk)
  refine ⟨hM, ?_, fun d => ?_⟩
  · rw [hM, hm, hl, runDen_add_fin s n0 T]
    exact congrArg (fun z => Ideal.exp (runMax s n0 - runMax s (n0 + T)) * runDen s n0 + z)
      (Finset.sum_congr rfl fun j _ => by rw [hblk j])
  · rw [hM, hm, hacc d, runNum_add_fin s (v d) n0 T]
    exact congrArg (fun z => Ideal.exp (runMax s n0 - runMax s (n0 + T)) * runNum s (v d) n0 + z)
      (Finset.sum_congr rfl fun j _ => by rw [hblk j, hxv j d])

end Cert.OnlineStep

end
-- ==== Proof.KI.Region1Value.lean ====
import proofs.«159827_j24661702213738_2_alg».proof.Proof.KI.Region1Pieces
import proofs.«159827_j24661702213738_2_alg».proof.Proof.KI.Region1Reads
import proofs.«159827_j24661702213738_2_alg».proof.Proof.KI.Region1Blocks
import proofs.«159827_j24661702213738_2_alg».proof.Proof.KI.AttnDefs
import proofs.«159827_j24661702213738_2_alg».proof.Proof.OnlineStep

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx LibOnlineSoftmax

/-! # The attention call, read at the extended reals

For one query row, the three accumulators after key tile `ki` are the streaming-softmax quantities of the row's first
`512 * (ki + 1)` logits; after the last key tile the numerators are divided by the denominator and contracted with the
value weights. Everything is stated at the buffer contents `V` the call is entered with, under two hypotheses: every
scaled score of the query array against the key array is a real number (`sQ i` is row `i`'s sequence of them), and
every entry of the value array is a real number (`vX d` is column `d`'s sequence). -/

/-- ONE KEY TILE on the payloads, for row `r` of the query tile: from accumulators standing at the first `n0` keys to
    accumulators standing at the first `n0 + 512`. -/
theorem pay_step (x0 : FVec Ideal S1024x1024 .bf16) (x1 x2 : FVec Ideal S512x1024 .bf16)
    (xs0 xs1 : FVec Ideal S1024x1 .f32) (xs2 : FVec Ideal S1024x1024 .f32)
    (s : ℕ → ℝ) (v : Fin 1024 → ℕ → ℝ) (n0 : ℕ) (r : Fin 1024)
    (hm : xs0 (ix2 r (0 : Fin 1)) = runMax s n0) (hl : xs1 (ix2 r (0 : Fin 1)) = runDen s n0)
    (hacc : ∀ d : Fin 1024, xs2 (ix2 r d) = runNum s (v d) n0)
    (hblk : ∀ j : Fin 512, k1_pay7 (F := Ideal) x0 x1 (ix2 r j) = ((s (n0 + j.val) : ℝ) : EReal))
    (hxv : ∀ (j : Fin 512) (d : Fin 1024), x2 (ix2 j d) = ((v d (n0 + j.val) : ℝ) : EReal)) :
    k1_pay2 (F := Ideal) (k1_pay8 (F := Ideal) x0 x1 xs0) (ix2 r (0 : Fin 1)) = runMax s (n0 + 512)
    ∧ k1_pay11 (F := Ideal) x0 x1 xs0 xs0 xs1 (ix2 r (0 : Fin 1)) = runDen s (n0 + 512)
    ∧ ∀ d : Fin 1024, k1_pay1 (F := Ideal) (k1_pay9 (F := Ideal) x0 x1 xs0 xs0) (k1_pay12 (F := Ideal) x0 x1 x2 xs0) xs2 (ix2 r d) = runNum s (v d) (n0 + 512) := by
  obtain ⟨h1, h2, h3⟩ := Cert.OnlineStep.step (T := 512) s v n0 (xs0 (ix2 r (0 : Fin 1))) (xs1 (ix2 r (0 : Fin 1))) (fun d => xs2 (ix2 r d))
    (fun j => k1_pay7 (F := Ideal) x0 x1 (ix2 r j)) (fun j d => x2 (ix2 j d)) hm hl hacc hblk hxv
  have e8 : k1_pay8 (F := Ideal) x0 x1 xs0 (ix2 r (0 : Fin 1)) = max (xs0 (ix2 r (0 : Fin 1))) (⨆ j : Fin 512, k1_pay7 (F := Ideal) x0 x1 (ix2 r j)) := k1_pay8_apply x0 x1 xs0 r
  have e10 : ∀ j : Fin 512, k1_pay10 (F := Ideal) x0 x1 xs0 (ix2 r j)
      = Ideal.exp (k1_pay7 (F := Ideal) x0 x1 (ix2 r j) - max (xs0 (ix2 r (0 : Fin 1))) (⨆ j : Fin 512, k1_pay7 (F := Ideal) x0 x1 (ix2 r j))) := fun j => by
    rw [k1_pay10_apply x0 x1 xs0 r j, e8]
  have e9 : k1_pay9 (F := Ideal) x0 x1 xs0 xs0 (ix2 r (0 : Fin 1))
      = Ideal.exp (xs0 (ix2 r (0 : Fin 1)) - max (xs0 (ix2 r (0 : Fin 1))) (⨆ j : Fin 512, k1_pay7 (F := Ideal) x0 x1 (ix2 r j))) := by
    rw [k1_pay9_apply x0 x1 xs0 xs0 (ix2 r (0 : Fin 1)), e8]
  refine ⟨?_, ?_, fun d => ?_⟩
  · rw [k1_pay2_eq, e8]; exact h1
  · rw [k1_pay11_apply x0 x1 xs0 xs0 xs1 r, e9]
    refine Eq.trans ?_ h2
    exact congrArg (fun z => _ * xs1 (ix2 r (0 : Fin 1)) + z) (Finset.sum_congr rfl fun j _ => e10 j)
  · rw [k1_pay1_apply _ _ xs2 r d, e9, k1_pay12_apply x0 x1 x2 xs0 r d]
    refine Eq.trans ?_ (h3 d)
    exact congrArg (fun z => _ * xs2 (ix2 r d) + z) (Finset.sum_congr rfl fun j _ => by rw [e10 j])

section
variable (V : (c : Dev nD) → (b : Ref sig .tc) → Buf (Elt Ideal) ((c : Thread nD τ).loc b)) (c : Dev nD)
variable (sQ : Fin 8192 → ℕ → ℝ) (vX : Fin 1024 → ℕ → ℝ)
variable (hlog : ∀ (i : Fin 8192) (n : ℕ) (h : n < 8192), logitQK (V c main_v5) (V c main_v6) i ⟨n, h⟩ = ((sQ i n : ℝ) : EReal))
variable (hval : ∀ (d : Fin 1024) (n : ℕ) (h : n < 8192), colX (V c main_v0) ⟨n, h⟩ d = ((vX d n : ℝ) : EReal))

theorem t_lt (t : Fin cfg1.N) : t.val < 128 := lt_of_lt_of_eq t.isLt (show cfg1.N = 128 from N_1)

include hlog in
/-- At point `t`, row `r` of the query tile against key `j` of the key tile is the scaled score of array row `i` against
    array key `t % 16 * 512 + j`, a real number of row `i`'s sequence. -/
theorem blk_logit (t : Fin cfg1.N) (r : Fin 1024) (i : Fin 8192) (hi : i.val = t.val / 16 * 1024 + r.val) (j : Fin 512) :
    k1_pay7 (F := Ideal) (iblk1 V c 0 t) (iblk1 V c 1 t) (ix2 r j) = ((sQ i (t.val % 16 * 512 + j.val) : ℝ) : EReal) := by
  have ht := t_lt t
  have hj : t.val % 16 * 512 + j.val < 8192 := by have := j.isLt; omega
  refine Eq.trans ?_ (hlog i _ hj)
  rw [k1_pay7_apply (iblk1 V c 0 t) (iblk1 V c 1 t) r j]
  unfold logitQK
  refine congrArg (· * Ideal.ofBits .f32 0x3D000000#32) (Finset.sum_congr rfl fun a _ => ?_)
  rw [iblk1_0_apply V c t (ix2 r a) (ix2 i a) hi rfl, iblk1_1_apply V c t (ix2 j a) (ix2 ⟨t.val % 16 * 512 + j.val, hj⟩ a) rfl rfl]

include hval in
/-- At point `t`, entry `(j, d)` of the value tile is entry `(t % 16 * 512 + j, d)` of the value array, a real number of
    column `d`'s sequence. -/
theorem blk_val (t : Fin cfg1.N) (j : Fin 512) (d : Fin 1024) :
    (iblk1 V c 2 t : Vec Ideal S512x1024 .bf16) (ix2 j d) = ((vX d (t.val % 16 * 512 + j.val) : ℝ) : EReal) := by
  have ht := t_lt t
  have hj : t.val % 16 * 512 + j.val < 8192 := by have := j.isLt; omega
  refine Eq.trans ?_ (hval d _ hj)
  unfold colX
  exact iblk1_2_apply V c t (ix2 j d) (ix2 ⟨t.val % 16 * 512 + j.val, hj⟩ d) rfl rfl

/-- THE INVARIANT at point `t`, for row `r` of the query tile (array row `i`): the three accumulators stand at the row's
    first `(t % 16 + 1) * 512` keys. -/
def St (t : Fin cfg1.N) (r : Fin 1024) (i : Fin 8192) : Prop :=
  (outsAt1 V c t.val t.isLt).2.1 (ix2 r (0 : Fin 1)) = runMax (sQ i) (t.val % 16 * 512 + 512)
  ∧ (outsAt1 V c t.val t.isLt).2.2.1 (ix2 r (0 : Fin 1)) = runDen (sQ i) (t.val % 16 * 512 + 512)
  ∧ ∀ d : Fin 1024, (outsAt1 V c t.val t.isLt).2.2.2 (ix2 r d) = runNum (sQ i) (vX d) (t.val % 16 * 512 + 512)

include hlog hval in
/-- A first key tile: the accumulators restart from the reset values, which are the quantities of the empty prefix. -/
theorem St_first (t : Fin cfg1.N) (h0 : t.val % 16 = 0) (r : Fin 1024) (i : Fin 8192) (hi : i.val = t.val / 16 * 1024 + r.val) :
    St V c sQ vX t r i := by
  have h1 : ¬ t.val % 16 = 15 := by omega
  have hn0 : t.val % 16 * 512 = 0 := by omega
  unfold St
  rw [outsAt1_A V c t h0 h1]
  dsimp only
  rw [sout1_A_0_eq, sout1_A_1_eq, sout1_A_2_eq]
  exact pay_step (iblk1 V c 0 t) (iblk1 V c 1 t) (iblk1 V c 2 t) (k1_pay4 (F := Ideal)) (k1_pay5 (F := Ideal)) (k1_pay6 (F := Ideal)) (sQ i) vX (t.val % 16 * 512) r
    (by rw [hn0, k1_pay4_apply (ix2 r (0 : Fin 1)), runMax_zero]) (by rw [hn0, k1_pay5_apply (ix2 r (0 : Fin 1)), runDen_zero]) (fun d => by rw [hn0, k1_pay6_apply (ix2 r d), runNum_zero])
    (blk_logit V c sQ hlog t r i hi) (blk_val V c vX hval t)

include hlog hval in
/-- A later key tile: the accumulators continue from what the point before left. -/
theorem St_next (t : Fin cfg1.N) (h0 : ¬ t.val % 16 = 0) (r : Fin 1024) (i : Fin 8192) (hi : i.val = t.val / 16 * 1024 + r.val)
    (ih : St V c sQ vX ⟨t.val - 1, Nat.lt_of_le_of_lt (Nat.sub_le _ _) t.isLt⟩ r i) :
    St V c sQ vX t r i := by
  have hk : (t.val - 1) % 16 * 512 + 512 = t.val % 16 * 512 := by omega
  obtain ⟨i1, i2, i3⟩ := ih
  have j1 : (outsAt1 V c (t.val - 1) (Nat.lt_of_le_of_lt (Nat.sub_le _ _) t.isLt)).2.1 (ix2 r (0 : Fin 1)) = runMax (sQ i) (t.val % 16 * 512) := by
    rw [← hk]; exact i1
  have j2 : (outsAt1 V c (t.val - 1) (Nat.lt_of_le_of_lt (Nat.sub_le _ _) t.isLt)).2.2.1 (ix2 r (0 : Fin 1)) = runDen (sQ i) (t.val % 16 * 512) := by
    rw [← hk]; exact i2
  have j3 : ∀ d : Fin 1024, (outsAt1 V c (t.val - 1) (Nat.lt_of_le_of_lt (Nat.sub_le _ _) t.isLt)).2.2.2 (ix2 r d) = runNum (sQ i) (vX d) (t.val % 16 * 512) := fun d => by
    rw [← hk]; exact i3 d
  unfold St
  by_cases h1 : t.val % 16 = 15
  · rw [outsAt1_C V c t h0 h1]
    dsimp only
    rw [sout1_C_0_eq, sout1_C_1_eq, sout1_C_2_eq]
    exact pay_step (iblk1 V c 0 t) (iblk1 V c 1 t) (iblk1 V c 2 t) _ _ _ (sQ i) vX (t.val % 16 * 512) r j1 j2 j3
      (blk_logit V c sQ hlog t r i hi) (blk_val V c vX hval t)
  · rw [outsAt1_B V c t h0 h1]
    dsimp only
    rw [sout1_B_0_eq, sout1_B_1_eq, sout1_B_2_eq]
    exact pay_step (iblk1 V c 0 t) (iblk1 V c 1 t) (iblk1 V c 2 t) _ _ _ (sQ i) vX (t.val % 16 * 512) r j1 j2 j3
      (blk_logit V c sQ hlog t r i hi) (blk_val V c vX hval t)

include hlog hval in
/-- The invariant holds at every point, by induction along the grid: within a row tile each key tile continues the one
    before, and a first key tile restarts. -/
theorem St_all : ∀ (n : ℕ) (t : Fin cfg1.N), t.val = n → ∀ (r : Fin 1024) (i : Fin 8192), i.val = t.val / 16 * 1024 + r.val →
    St V c sQ vX t r i := by
  intro n
  induction n with
  | zero =>
    intro t ht r i hi
    exact St_first V c sQ vX hlog hval t (by omega) r i hi
  | succ n ih =>
    intro t ht r i hi
    by_cases h0 : t.val % 16 = 0
    · exact St_first V c sQ vX hlog hval t h0 r i hi
    · refine St_next V c sQ vX hlog hval t h0 r i hi (ih ⟨t.val - 1, Nat.lt_of_le_of_lt (Nat.sub_le _ _) t.isLt⟩ (by show t.val - 1 = n; omega) r i ?_)
      show i.val = (t.val - 1) / 16 * 1024 + r.val
      have : (t.val - 1) / 16 = t.val / 16 := by omega
      rw [this]; exact hi

include hlog hval in
/-- THE OUTPUT TILE at a last key tile: entry `(r, d')` is the row's normalised numerators contracted with row `d'` of
    the value weights. -/
theorem out_tile (t : Fin cfg1.N) (h1 : t.val % 16 = 15) (r d' : Fin 1024) (i : S8192x1024.Idx)
    (hi0 : (i 0).val = t.val / 16 * 1024 + r.val) (hi1 : (i 1).val = d'.val) :
    (outsAt1 V c t.val t.isLt).1 (ix2 r d') = attnG (V c main_v3) sQ vX i := by
  have h0 : ¬ t.val % 16 = 0 := by omega
  have hlast : (t.val - 1) % 16 * 512 + 512 + 512 = 8192 := by omega
  obtain ⟨i1, i2, i3⟩ := St_all V c sQ vX hlog hval (t.val - 1) ⟨t.val - 1, Nat.lt_of_le_of_lt (Nat.sub_le _ _) t.isLt⟩ rfl r (i 0)
    (by show (i 0).val = (t.val - 1) / 16 * 1024 + r.val
        have : (t.val - 1) / 16 = t.val / 16 := by omega
        rw [this]; exact hi0)
  obtain ⟨-, k2, k3⟩ := pay_step (iblk1 V c 0 t) (iblk1 V c 1 t) (iblk1 V c 2 t) _ _ _ (sQ (i 0)) vX ((t.val - 1) % 16 * 512 + 512) r i1 i2 i3
    (fun j => by
      have e : (t.val - 1) % 16 * 512 + 512 = t.val % 16 * 512 := by omega
      rw [e]; exact blk_logit V c sQ hlog t r (i 0) hi0 j)
    (fun j d => by
      have e : (t.val - 1) % 16 * 512 + 512 = t.val % 16 * 512 := by omega
      rw [e]; exact blk_val V c vX hval t j d)
  rw [hlast] at k2 k3
  rw [outsAt1_C V c t h0 h1]
  dsimp only
  rw [out1_C_4_eq, k1_pay3_apply _ _ _ r d']
  unfold attnG
  have hd : (i 1) = d' := Fin.ext hi1
  refine Finset.sum_congr rfl fun d _ => ?_
  rw [k3 d, k2, iblk1_3_apply V c t (ix2 d' d) (ix2 (i 1) d) (by show (i 1).val = d'.val; exact hi1) rfl]

include hlog hval in
/-- THE ARRAY the attention call leaves in its output. -/
theorem arr1_final : (dat1 (F := Ideal) V c).arrAt 4 cfg1.N = attnG (V c main_v3) sQ vX :=
  arr1_final_of V c _ fun t hf => tile_of_rows V c t ((flush1_4 t).mp hf) _ fun r d' i hi0 hi1 =>
    out_tile V c sQ vX hlog hval t ((flush1_4 t).mp hf) r d' i hi0 hi1

end

end Cert.KernelIdeal.Hand

end
-- ==== Proof.KI.Region0Value.lean ====
/- REGION 0 of the idealized kernel program, read at the extended reals: the array the projection call leaves in its
   output, as one function of the buffer contents `V` the region is entered with. Every float operation is exact and a
   change of format is the identity, so the body's narrowed product into a zero accumulator is, entry by entry, an inner
   product over the 1024 shared columns; the eight row tiles the grid writes back cover the output, and the array ends
   at  out[r, j] = Σ_k x[r, k] · w[j, k]  with x the activations and w the stacked weights. -/
import proofs.«159827_j24661702213738_2_alg».proof.Proof.KI.Region0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's product at an entry -/

/-- The product's dimension numbers: both operands are contracted over their columns (axis 1), their rows (axis 0) are
    the output's two axes. At output entry `j` and contraction index `q` the left operand is read at row `j 0`, column
    `q` … -/
theorem lhs0_0 (j : S1024x2048.Idx) (q : dot_S1024x1024_S2048x1024_S1024x2048_1_1_0_0_n_n.contr.Idx) :
    (dot_S1024x1024_S2048x1024_S1024x2048_1_1_0_0_n_n.lhsIdx j q 0).val = (j 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs0_1 (j : S1024x2048.Idx) (q : dot_S1024x1024_S2048x1024_S1024x2048_1_1_0_0_n_n.contr.Idx) :
    (dot_S1024x1024_S2048x1024_S1024x2048_1_1_0_0_n_n.lhsIdx j q 1).val = (q ⟨0, by decide⟩).val :=
  dot_S1024x1024_S2048x1024_S1024x2048_1_1_0_0_n_n.lhsIdx_val_of_single rfl j q
/-- … and the right operand at row `j 1`, column `q`: the product is with the TRANSPOSED right operand. -/
theorem rhs0_0 (j : S1024x2048.Idx) (q : dot_S1024x1024_S2048x1024_S1024x2048_1_1_0_0_n_n.contr.Idx) :
    (dot_S1024x1024_S2048x1024_S1024x2048_1_1_0_0_n_n.rhsIdx j q 0).val = (j 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs0_1 (j : S1024x2048.Idx) (q : dot_S1024x1024_S2048x1024_S1024x2048_1_1_0_0_n_n.contr.Idx) :
    (dot_S1024x1024_S2048x1024_S1024x2048_1_1_0_0_n_n.rhsIdx j q 1).val = (q ⟨0, by decide⟩).val :=
  dot_S1024x1024_S2048x1024_S1024x2048_1_1_0_0_n_n.rhsIdx_val_of_single rfl j q

/-- What the body stores, at entry (p, q) of the tile: the casts of the loaded blocks to their own shapes and the
    narrowing of the product are identities on extended reals, the accumulator is zero, so the entry is the inner product
    of row `p` of the activations' tile with row `q` of the weights. -/
theorem pay_apply (x0 : Vec Ideal S1024x1024 .bf16) (x1 : Vec Ideal S2048x1024 .bf16) (p : Fin 1024) (q : Fin 2048) :
    k0_pay1 x0 x1 (ix2 p q) = ∑ k : Fin 1024, x0 (ix2 p k) * x1 (ix2 q k) := by
  unfold k0_pay1
  simp only [shapeCast_self]
  rw [truncf_apply]
  simp only [matmul]
  rw [Ideal.matmul_constant_zero_apply, ← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 p q) ((contrEquiv1 dot_S1024x1024_S2048x1024_S1024x2048_1_1_0_0_n_n 1024 rfl rfl).symm k) = ix2 p k := funext fun a => Fin.ext (by
    match a with
    | ⟨0, _⟩ => exact lhs0_0 _ _
    | ⟨1, _⟩ => exact (lhs0_1 _ _).trans hk)
  have er : dot_S1024x1024_S2048x1024_S1024x2048_1_1_0_0_n_n.rhsIdx (ix2 p q) ((contrEquiv1 dot_S1024x1024_S2048x1024_S1024x2048_1_1_0_0_n_n 1024 rfl rfl).symm k) = ix2 q k := funext fun a => Fin.ext (by
    match a with
    | ⟨0, _⟩ => exact rhs0_0 _ _
    | ⟨1, _⟩ => exact (rhs0_1 _ _).trans hk)
  rw [el, er]

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The projection: entry (r, j) is the inner product of row `r` of the activations with row `j` of the stacked weights. -/
def proj0 (x : S8192x1024.Idx → EReal) (w : S2048x1024.Idx → EReal) : S8192x2048.Idx → EReal :=
  fun i => ∑ k : Fin 1024, x (ix2 (i 0) k) * w (ix2 (i 1) k)

/-- The projection at an entry, spelt out. -/
theorem proj0_apply (x : S8192x1024.Idx → EReal) (w : S2048x1024.Idx → EReal) (i : S8192x2048.Idx) :
    proj0 x w i = ∑ k : Fin 1024, x (ix2 (i 0) k) * w (ix2 (i 1) k) := rfl

/-- The index maps over the grid: at point `t` the activations' and the output's windows are on row block `t`, column
    block 0; the weights' window is on block (0, 0), its whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point `t` is rows 1024 t … 1024 t + 1023 of their array. -/
theorem iblk0_0_apply (c : Dev nD) (t : Fin cfg0.N) (y : S1024x1024.Idx) (i : S8192x1024.Idx)
    (h0 : (i 0).val = t.val * 1024 + (y 0).val) (h1 : (i 1).val = (y 1).val) :
    (iblk0 V c 0 t : Vec Ideal S1024x1024 .bf16) y = (V c main_v0 : S8192x1024.Idx → EReal) i := by
  obtain ⟨e0, e1, -⟩ := idx_facts0 t
  unfold iblk0
  rw [View.read_apply]
  show V c main_v0 _ = V c main_v0 _
  refine congrArg (V c main_v0) ?_
  funext a
  apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The weights' block at every point is their whole array. -/
theorem iblk0_1_apply (c : Dev nD) (t : Fin cfg0.N) (y : S2048x1024.Idx) (i : S2048x1024.Idx)
    (h0 : (i 0).val = (y 0).val) (h1 : (i 1).val = (y 1).val) :
    (iblk0 V c 1 t : Vec Ideal S2048x1024 .bf16) y = (V c main_v2 : S2048x1024.Idx → EReal) i := by
  obtain ⟨-, -, e2, e3, -⟩ := idx_facts0 t
  unfold iblk0
  rw [View.read_apply]
  show V c main_v2 _ = V c main_v2 _
  refine congrArg (V c main_v2) ?_
  funext a
  apply Fin.ext
  match a with
  | ⟨0, _⟩ => show win0_1.index t (0 : Fin 2) * 2048 + 1 * (y 0).val = (i 0).val; rw [e2, h0]; omega
  | ⟨1, _⟩ => show win0_1.index t (1 : Fin 2) * 1024 + 1 * (y 1).val = (i 1).val; rw [e3, h1]; omega

/-- So what the body stores at entry `j` of the tile at point `t` is the projection at row 1024 t + j 0, column j 1. -/
theorem pay_blk (c : Dev nD) (t : Fin cfg0.N) (j : S1024x2048.Idx) (i : S8192x2048.Idx)
    (h0 : (i 0).val = t.val * 1024 + (j 0).val) (h1 : (i 1).val = (j 1).val) :
    k0_pay1 (iblk0 V c 0 t) (iblk0 V c 1 t) j = proj0 (V c main_v0) (V c main_v2) i := by
  obtain ⟨p, q, rfl⟩ : ∃ (p : Fin 1024) (q : Fin 2048), j = ix2 p q := ⟨j 0, j 1, eq_ix2 j⟩
  rw [pay_apply]
  unfold proj0
  refine Finset.sum_congr rfl fun k _ => ?_
  rw [iblk0_0_apply V c t (ix2 p k) (ix2 (i 0) k) h0 rfl, iblk0_1_apply V c t (ix2 q k) (ix2 (i 1) k) h1 rfl]

/-- WHAT POINT `t` WRITES BACK is block `t` of the projection of the arrays as the region finds them. -/
theorem flushed0_2_eq (c : Dev nD) (t : Fin cfg0.N) :
    (dat0 (F := Ideal) V c).flushed 2 t = ((cfg0.win 2).blk t).view.read (Elt Ideal) (proj0 (V c main_v0) (V c main_v2)) := by
  show (cfg0.win 2).cut (grid0.coords t) ((dat0 V c).after 2 t) = _
  rw [after0_2]
  unfold out0_2
  rw [View.canon_unit_zero hz0]
  simp only [View.ld_unit_zero (S := S1024x1024) hz0, View.ld_unit_zero (S := S2048x1024) hz0]
  obtain ⟨-, -, -, -, e4, e5⟩ := idx_facts0 t
  funext j
  show k0_pay1 (iblk0 V c 0 t) (iblk0 V c 1 t) j = proj0 (V c main_v0) (V c main_v2) (((cfg0.win 2).blk t).view.emb j)
  refine pay_blk V c t j _ ?_ ?_
  · show win0_2.index t (0 : Fin 2) * 1024 + 1 * (j 0).val = t.val * 1024 + (j 0).val; rw [e4]; omega
  · show win0_2.index t (1 : Fin 2) * 2048 + 1 * (j 1).val = (j 1).val; rw [e5]; omega

/-- An index of the output array is in point `t`'s block iff each coordinate is in the block's range on its axis. -/
theorem mem_blk0_2 (t : Fin cfg0.N) (i : S8192x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v4).slice (win0_2.rect t)).set ↔ _
  rw [View.set_slice_whole, Rect.mem_set_unit]
  exact Iff.rfl

/-- Row `r` of the output is written back by point r / 1024: the eight row tiles cover the array. -/
theorem cover0 (i : S8192x2048.Idx) : ∃ t : Fin cfg0.N, (cfg0.win 2).flush t = true ∧ i ∈ ((cfg0.win 2).blk t).view.set := by
  have hi0 : (i 0).val < 8192 := idx2_lt0 i
  have hi1 : (i 1).val < 2048 := idx2_lt1 i
  have hN : cfg0.N = 8 := N_0
  have ht : (i 0).val / 1024 < cfg0.N := by rw [hN]; omega
  obtain ⟨-, -, -, -, e4, e5⟩ := idx_facts0 ⟨(i 0).val / 1024, ht⟩
  refine ⟨⟨(i 0).val / 1024, ht⟩, flush0_2 _, ?_⟩
  rw [mem_blk0_2]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 2048 ≤ (i 1).val ∧ (i 1).val < win0_2.index ⟨(i 0).val / 1024, ht⟩ (1 : Fin 2) * 2048 + 2048
    rw [e5]; omega

/-- THE ARRAY the region leaves in its output: the projection of the activations and the stacked weights as the region
    finds them, entry by entry. -/
theorem arr0_final (c : Dev nD) : (dat0 (F := Ideal) V c).arrAt 2 cfg0.N = proj0 (V c main_v0) (V c main_v2) :=
  (dat0 (F := Ideal) V c).arrAt_eq_of_cover 2 (proj0 (V c main_v0) (V c main_v2)) (fun t _ => flushed0_2_eq V c t) cover0

end Cert.KernelIdeal.Hand

end
-- ==== Proof.KI.HostReads.lean ====
/- What the two host stretches of the idealized kernel program put in the buffers its two calls read, as functions of the
   four argument arrays, at the extended reals. Before the projection call: the activations cast (the identity) and the
   query weights stacked over the key weights. Between the calls: the projection call's output — the projection of those
   two — sliced by columns into the queries (columns 0 … 1023) and the keys (columns 1024 … 2047); the activations and the
   cast last weights pass through. So the queries are  q[i, a] = Σ_k x[i, k] · Wq[a, k]  and the keys
   k[j, a] = Σ_k x[j, k] · Wk[a, k]. -/
import proofs.«159827_j24661702213738_2_alg».proof.Proof.KI.Run
import proofs.«159827_j24661702213738_2_alg».proof.Proof.KI.Region0Value
import proofs.«159827_j24661702213738_2_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx

variable (m : (ℓ : Loc nD τ sig) → Buf (Elt Ideal) ℓ) (ρ : Dev nD → PrngReg)

/-! ## Before the projection call: the casts and the stacked weights -/

/-- The activations the projection call reads are the first argument: the cast to the narrow format is the identity
    on extended reals. -/
theorem E1_v0 (c : Dev nD) :
    (E1 m ρ c main_v0 : S8192x1024.Idx → EReal) = (m ((c : Thread nD τ).loc main_arg0) : S8192x1024.Idx → EReal) := by
  show StableHlo.after hostOps0 (B0 m ρ c) (Proc.devRef .tc main_v0) = _
  after_results
  rfl

/-- The stacked weights it reads are the query weights over the key weights, rows 0 … 1023 and 1024 … 2047. -/
theorem E1_v2 (c : Dev nD) :
    (E1 m ρ c main_v2 : S2048x1024.Idx → EReal)
      = concatenate S2048x1024 0 [⟨S1024x1024, (m ((c : Thread nD τ).loc main_arg1) : S1024x1024.Idx → EReal)⟩,
          ⟨S1024x1024, (m ((c : Thread nD τ).loc main_arg2) : S1024x1024.Idx → EReal)⟩] concatenates_S1024x1024_S1024x1024_S2048x1024_d0 := by
  show StableHlo.after hostOps0 (B0 m ρ c) (Proc.devRef .tc main_v2) = _
  after_results
  rfl

/-- Row a' of the stacked weights, a' < 1024, is row a' of the query weights … -/
theorem E1_v2_q (c : Dev nD) (a' k : Fin 1024) (a2 : Fin 2048) (ha : a2.val = a'.val) :
    (E1 m ρ c main_v2 : S2048x1024.Idx → EReal) (ix2 a2 k) = (m ((c : Thread nD τ).loc main_arg1) : S1024x1024.Idx → EReal) (ix2 a' k) := by
  rw [E1_v2]
  exact concatenate_pair_apply_left (t := S2048x1024) (s₁ := S1024x1024) (s₂ := S1024x1024) 0 _ _ _ (ix2 a2 k) rfl (ix2 a' k) (fun b => match b with
    | ⟨0, _⟩ => ha.symm
    | ⟨1, _⟩ => rfl)

/-- … and row 1024 + a' is row a' of the key weights. -/
theorem E1_v2_k (c : Dev nD) (a' k : Fin 1024) (a2 : Fin 2048) (ha : a2.val = 1024 + a'.val) :
    (E1 m ρ c main_v2 : S2048x1024.Idx → EReal) (ix2 a2 k) = (m ((c : Thread nD τ).loc main_arg2) : S1024x1024.Idx → EReal) (ix2 a' k) := by
  rw [E1_v2]
  refine concatenate_pair_apply_right (t := S2048x1024) (s₁ := S1024x1024) (s₂ := S1024x1024) 0 _ _ _ (ix2 a2 k) rfl rfl (ix2 a' k) (fun b hb => ?_) ?_
  · match b with
    | ⟨0, _⟩ => exact absurd rfl hb
    | ⟨1, _⟩ => rfl
  · show a'.val + 1024 = a2.val
    omega

/-! ## Between the calls: the slices of the projection, and what passes through -/

/-- The attention call reads the same activations: the projection call only reads them, the slices do not write them. -/
theorem E3_v0 (c : Dev nD) :
    (E3 m ρ c main_v0 : S8192x1024.Idx → EReal) = (m ((c : Thread nD τ).loc main_arg0) : S8192x1024.Idx → EReal) := by
  show StableHlo.after hostOps1 (B2 m ρ c) (Proc.devRef .tc main_v0) = _
  after_results
  have h0 : B2 m ρ c (Proc.devRef .tc main_v0) = (dat0 (E1 m ρ) c).arrAt 0 cfg0.N := B2_arr m ρ c 0
  rw [h0, (dat0 (E1 m ρ) c).arrAt_in 0 rfl _, A_eq0]
  exact E1_v0 m ρ c

/-- The last projection's weights it reads are the fourth argument. -/
theorem E3_v3 (c : Dev nD) :
    (E3 m ρ c main_v3 : S1024x1024.Idx → EReal) = (m ((c : Thread nD τ).loc main_arg3) : S1024x1024.Idx → EReal) := by
  show StableHlo.after hostOps1 (B2 m ρ c) (Proc.devRef .tc main_v3) = _
  after_results
  rw [B2_of_ne m ρ c main_v3 (by decide)]
  show StableHlo.after hostOps0 (B0 m ρ c) (Proc.devRef .tc main_v3) = _
  after_results
  rfl

/-- The projection call's output, when the slices read it: the projection of what that call was entered with. -/
theorem B2_v4 (c : Dev nD) :
    (B2 m ρ c (Proc.devRef .tc main_v4) : S8192x2048.Idx → EReal) = proj0 (E1 m ρ c main_v0) (E1 m ρ c main_v2) := by
  have h4 : B2 m ρ c (Proc.devRef .tc main_v4) = (dat0 (E1 m ρ) c).arrAt 2 cfg0.N := B2_arr m ρ c 2
  rw [h4]
  exact arr0_final (E1 m ρ) c

/-- The queries: columns 0 … 1023 of the projection. -/
theorem E3_v5 (c : Dev nD) (i : Fin 8192) (a : Fin 1024) (a2 : Fin 2048) (ha : a2.val = a.val) :
    (E3 m ρ c main_v5 : S8192x1024.Idx → EReal) (ix2 i a) = proj0 (E1 m ρ c main_v0) (E1 m ρ c main_v2) (ix2 i a2) := by
  show StableHlo.after hostOps1 (B2 m ρ c) (Proc.devRef .tc main_v5) (ix2 i a) = _
  after_results
  rw [B2_v4]
  exact extractStridedSlice_apply _ _ _ (ix2 i a) (ix2 i a2) (fun b => match b with
    | ⟨0, _⟩ => by show i.val = 0 + i.val; omega
    | ⟨1, _⟩ => by show a2.val = 0 + a.val; omega)

/-- The keys: columns 1024 … 2047 of the projection. -/
theorem E3_v6 (c : Dev nD) (j : Fin 8192) (a : Fin 1024) (a2 : Fin 2048) (ha : a2.val = 1024 + a.val) :
    (E3 m ρ c main_v6 : S8192x1024.Idx → EReal) (ix2 j a) = proj0 (E1 m ρ c main_v0) (E1 m ρ c main_v2) (ix2 j a2) := by
  show StableHlo.after hostOps1 (B2 m ρ c) (Proc.devRef .tc main_v6) (ix2 j a) = _
  after_results
  rw [B2_v4]
  exact extractStridedSlice_apply _ _ _ (ix2 j a) (ix2 j a2) (fun b => match b with
    | ⟨0, _⟩ => by show j.val = 0 + j.val; omega
    | ⟨1, _⟩ => by show a2.val = 1024 + a.val; omega)

/-! ## The queries and the keys as functions of the arguments -/

/-- The projection at row `i`, column `a2`, once its two arrays are read by coordinates. -/
theorem proj0_rows (X : S8192x1024.Idx → EReal) (W2 : S2048x1024.Idx → EReal) (x : Fin 8192 → Fin 1024 → EReal)
    (w : Fin 1024 → Fin 1024 → EReal) (a2 : Fin 2048) (a : Fin 1024) (hX : ∀ p q, X (ix2 p q) = x p q)
    (hW : ∀ k, W2 (ix2 a2 k) = w a k) (i : Fin 8192) : proj0 X W2 (ix2 i a2) = ∑ k : Fin 1024, x i k * w a k := by
  rw [proj0_apply]
  refine Finset.sum_congr rfl fun k _ => ?_
  show X (ix2 i k) * W2 (ix2 a2 k) = _
  rw [hX, hW]

/-- The queries the attention call reads: row i of the activations against row a of the query weights. -/
theorem E3_v5_q (c : Dev nD) (i : Fin 8192) (a : Fin 1024) :
    (E3 m ρ c main_v5 : S8192x1024.Idx → EReal) (ix2 i a)
      = Cert.Spec.q (fun p q => (m ((c : Thread nD τ).loc main_arg0) : S8192x1024.Idx → EReal) (ix2 p q))
          (fun p q => (m ((c : Thread nD τ).loc main_arg1) : S1024x1024.Idx → EReal) (ix2 p q)) i a := by
  rw [E3_v5 m ρ c i a ⟨a.val, by have := a.isLt; omega⟩ rfl]
  unfold Cert.Spec.q
  exact proj0_rows (E1 m ρ c main_v0) (E1 m ρ c main_v2) (fun p q => (m ((c : Thread nD τ).loc main_arg0) : S8192x1024.Idx → EReal) (ix2 p q))
    (fun p q => (m ((c : Thread nD τ).loc main_arg1) : S1024x1024.Idx → EReal) (ix2 p q)) ⟨a.val, by have := a.isLt; omega⟩ a
    (fun p q => congrFun (E1_v0 m ρ c) (ix2 p q)) (fun k => E1_v2_q m ρ c a k _ rfl) i

/-- The keys it reads: row j of the activations against row a of the key weights. -/
theorem E3_v6_k (c : Dev nD) (j : Fin 8192) (a : Fin 1024) :
    (E3 m ρ c main_v6 : S8192x1024.Idx → EReal) (ix2 j a)
      = Cert.Spec.kk (fun p q => (m ((c : Thread nD τ).loc main_arg0) : S8192x1024.Idx → EReal) (ix2 p q))
          (fun p q => (m ((c : Thread nD τ).loc main_arg2) : S1024x1024.Idx → EReal) (ix2 p q)) j a := by
  rw [E3_v6 m ρ c j a ⟨1024 + a.val, by have := a.isLt; omega⟩ rfl]
  unfold Cert.Spec.kk
  exact proj0_rows (E1 m ρ c main_v0) (E1 m ρ c main_v2) (fun p q => (m ((c : Thread nD τ).loc main_arg0) : S8192x1024.Idx → EReal) (ix2 p q))
    (fun p q => (m ((c : Thread nD τ).loc main_arg2) : S1024x1024.Idx → EReal) (ix2 p q)) ⟨1024 + a.val, by have := a.isLt; omega⟩ a
    (fun p q => congrFun (E1_v0 m ρ c) (ix2 p q)) (fun k => E1_v2_k m ρ c a k _ rfl) j

end Cert.KernelIdeal.Hand

end
-- ==== Proof.SpecOnline.lean ====
/-
  The softmax row of the attention layer (Spec.lean), read as the running quantities of the streaming recurrence.

  When every entry of x, Wq and Wk is a real number, every query, key and logit entry is a real number (a finite
  sum of products of reals; the scale word denotes a real). Row i of the logits is then a real sequence
  sRow i : ℕ → ℝ (zero beyond the 8192 entries) and column d of x a real sequence vCol d, and

    rowMax i = runMax (sRow i) 8192,        den i = runDen (sRow i) 8192,
    y i d    = runNum (sRow i) (vCol d) 8192 / runDen (sRow i) 8192:

  the softmax-weighted mix of the rows of x is the accumulated numerator normalised once at the end. The sums over
  Fin 8192 are re-indexed as sums over the range below 8192 and the supremum as the supremum over that range; no
  sum or supremum is ever evaluated.
-/
import proofs.«159827_j24661702213738_2_alg».proof.Proof.Spec
import proofs.«159827_j24661702213738_2_alg».proof.Proof.LibOnlineSoftmax

noncomputable section

open scoped BigOperators

namespace Cert.SpecOnline

open Idealize.ShloMosaic LibOnlineSoftmax

/-! ### Real entries -/

/-- A finite sum of products of real numbers, read in the extended reals, is a real number. -/
theorem sum_mul_real {ι : Type*} (t : Finset ι) (f g : ι → EReal) (hf : ∀ k, ∃ r : ℝ, f k = (r : EReal))
    (hg : ∀ k, ∃ r : ℝ, g k = (r : EReal)) : ∃ r : ℝ, ∑ k ∈ t, f k * g k = (r : EReal) := by
  choose a ha using hf
  choose b hb using hg
  refine ⟨∑ k ∈ t, a k * b k, ?_⟩
  rw [coe_finset_sum]
  exact Finset.sum_congr rfl fun k _ => by rw [ha, hb, EReal.coe_mul]

/-- The scale word denotes a real number (it is 1/32; which real is never used). -/
theorem scale_real : ∃ c : ℝ, Cert.Spec.scale = (c : EReal) := by
  refine ⟨1 / 32, ?_⟩
  unfold Cert.Spec.scale
  simp [Ideal.ofBits, Ideal.ieee, -EReal.coe_mul]
  norm_num

variable (x : Fin 8192 → Fin 1024 → EReal) (Wq Wk : Fin 1024 → Fin 1024 → EReal)

/-- Every query entry is a real number. -/
theorem q_real (hx : ∀ i k, ∃ r : ℝ, x i k = (r : EReal)) (hq : ∀ a k, ∃ r : ℝ, Wq a k = (r : EReal))
    (i : Fin 8192) (a : Fin 1024) : ∃ r : ℝ, Cert.Spec.q x Wq i a = (r : EReal) :=
  sum_mul_real Finset.univ (fun k => x i k) (fun k => Wq a k) (fun k => hx i k) (fun k => hq a k)

/-- Every key entry is a real number. -/
theorem kk_real (hx : ∀ i k, ∃ r : ℝ, x i k = (r : EReal)) (hk : ∀ a k, ∃ r : ℝ, Wk a k = (r : EReal))
    (j : Fin 8192) (a : Fin 1024) : ∃ r : ℝ, Cert.Spec.kk x Wk j a = (r : EReal) :=
  sum_mul_real Finset.univ (fun k => x j k) (fun k => Wk a k) (fun k => hx j k) (fun k => hk a k)

/-- Every logit is a real number. -/
theorem logit_real (hx : ∀ i k, ∃ r : ℝ, x i k = (r : EReal)) (hq : ∀ a k, ∃ r : ℝ, Wq a k = (r : EReal))
    (hk : ∀ a k, ∃ r : ℝ, Wk a k = (r : EReal)) (i j : Fin 8192) :
    ∃ r : ℝ, Cert.Spec.logit x Wq Wk i j = (r : EReal) := by
  obtain ⟨r, hr⟩ := sum_mul_real Finset.univ (fun a => Cert.Spec.q x Wq i a) (fun a => Cert.Spec.kk x Wk j a)
    (fun a => q_real x Wq hx hq i a) (fun a => kk_real x Wk hx hk j a)
  obtain ⟨c, hc⟩ := scale_real
  refine ⟨r * c, ?_⟩
  unfold Cert.Spec.logit
  rw [hr, hc, EReal.coe_mul]

/-! ### Row i of the logits and column d of x as real sequences -/

/-- Row i of the logits as a real sequence, zero beyond its 8192 entries. -/
def sRow (i : Fin 8192) : ℕ → ℝ :=
  fun j => if h : j < 8192 then (Cert.Spec.logit x Wq Wk i ⟨j, h⟩).toReal else 0

/-- Column d of x as a real sequence, zero beyond its 8192 entries. -/
def vCol (d : Fin 1024) : ℕ → ℝ :=
  fun j => if h : j < 8192 then (x ⟨j, h⟩ d).toReal else 0

/-- The logit at key row n (below 8192) is entry n of the row sequence. -/
theorem logit_eq_sRow_nat (hx : ∀ i k, ∃ r : ℝ, x i k = (r : EReal)) (hq : ∀ a k, ∃ r : ℝ, Wq a k = (r : EReal))
    (hk : ∀ a k, ∃ r : ℝ, Wk a k = (r : EReal)) (i : Fin 8192) (n : ℕ) (h : n < 8192) :
    Cert.Spec.logit x Wq Wk i ⟨n, h⟩ = ((sRow x Wq Wk i n : ℝ) : EReal) := by
  obtain ⟨r, hr⟩ := logit_real x Wq Wk hx hq hk i ⟨n, h⟩
  unfold sRow
  rw [dif_pos h, hr, EReal.toReal_coe]

/-- The entry of x at row n (below 8192), column d, is entry n of the column sequence. -/
theorem x_eq_vCol_nat (hx : ∀ i k, ∃ r : ℝ, x i k = (r : EReal)) (n : ℕ) (h : n < 8192) (d : Fin 1024) :
    x ⟨n, h⟩ d = ((vCol x d n : ℝ) : EReal) := by
  obtain ⟨r, hr⟩ := hx ⟨n, h⟩ d
  unfold vCol
  rw [dif_pos h, hr, EReal.toReal_coe]

/-- The logit (i, j) is entry j of row i's sequence. -/
theorem logit_eq_sRow (hx : ∀ i k, ∃ r : ℝ, x i k = (r : EReal)) (hq : ∀ a k, ∃ r : ℝ, Wq a k = (r : EReal))
    (hk : ∀ a k, ∃ r : ℝ, Wk a k = (r : EReal)) (i j : Fin 8192) :
    Cert.Spec.logit x Wq Wk i j = ((sRow x Wq Wk i j.val : ℝ) : EReal) :=
  logit_eq_sRow_nat x Wq Wk hx hq hk i j.val j.isLt

/-- The entry (j, d) of x is entry j of column d's sequence. -/
theorem x_eq_vCol (hx : ∀ i k, ∃ r : ℝ, x i k = (r : EReal)) (j : Fin 8192) (d : Fin 1024) :
    x j d = ((vCol x d j.val : ℝ) : EReal) :=
  x_eq_vCol_nat x hx j.val j.isLt d

/-! ### The blocks of 512 key rows: entry 512 * ki + j of a sequence -/

/-- Entry j of block ki (16 blocks of 512) of row i's sequence is the logit at key row 512 * ki + j. -/
theorem sRow_block (hx : ∀ i k, ∃ r : ℝ, x i k = (r : EReal)) (hq : ∀ a k, ∃ r : ℝ, Wq a k = (r : EReal))
    (hk : ∀ a k, ∃ r : ℝ, Wk a k = (r : EReal)) (i : Fin 8192) (ki : Fin 16) (j : Fin 512)
    (h : 512 * ki.val + j.val < 8192) :
    ((sRow x Wq Wk i (512 * ki.val + j.val) : ℝ) : EReal)
      = Cert.Spec.logit x Wq Wk i ⟨512 * ki.val + j.val, h⟩ :=
  (logit_eq_sRow_nat x Wq Wk hx hq hk i _ h).symm

/-- Entry j of block ki of column d's sequence is x at row 512 * ki + j, column d. -/
theorem vCol_block (hx : ∀ i k, ∃ r : ℝ, x i k = (r : EReal)) (d : Fin 1024) (ki : Fin 16) (j : Fin 512)
    (h : 512 * ki.val + j.val < 8192) :
    ((vCol x d (512 * ki.val + j.val) : ℝ) : EReal) = x ⟨512 * ki.val + j.val, h⟩ d :=
  (x_eq_vCol_nat x hx _ h d).symm

/-- Every entry of a block lies below 8192. -/
theorem block_lt (ki : Fin 16) (j : Fin 512) : 512 * ki.val + j.val < 8192 := by
  have := ki.isLt; have := j.isLt; omega

/-! ### The softmax row as running quantities over the whole row -/

/-- The row maximum is the running maximum of the whole row. -/
theorem rowMax_eq (hx : ∀ i k, ∃ r : ℝ, x i k = (r : EReal)) (hq : ∀ a k, ∃ r : ℝ, Wq a k = (r : EReal))
    (hk : ∀ a k, ∃ r : ℝ, Wk a k = (r : EReal)) (i : Fin 8192) :
    Cert.Spec.rowMax x Wq Wk i = runMax (sRow x Wq Wk i) 8192 := by
  unfold Cert.Spec.rowMax runMax
  rw [← iSup_fin_eq_sup_range 8192 fun j => ((sRow x Wq Wk i j : ℝ) : EReal)]
  exact iSup_congr fun j => logit_eq_sRow x Wq Wk hx hq hk i j

/-- The softmax denominator is the running denominator of the whole row. -/
theorem den_eq (hx : ∀ i k, ∃ r : ℝ, x i k = (r : EReal)) (hq : ∀ a k, ∃ r : ℝ, Wq a k = (r : EReal))
    (hk : ∀ a k, ∃ r : ℝ, Wk a k = (r : EReal)) (i : Fin 8192) :
    Cert.Spec.den x Wq Wk i = runDen (sRow x Wq Wk i) 8192 := by
  unfold Cert.Spec.den runDen
  rw [← Fin.sum_univ_eq_sum_range
    (fun j => Ideal.exp (((sRow x Wq Wk i j : ℝ) : EReal) - runMax (sRow x Wq Wk i) 8192)) 8192]
  refine Finset.sum_congr rfl fun j _ => ?_
  unfold Cert.Spec.e
  rw [logit_eq_sRow x Wq Wk hx hq hk i j, rowMax_eq x Wq Wk hx hq hk i]

/-- THE MIXED ROW IS THE ACCUMULATED NUMERATOR NORMALISED ONCE: the softmax-weighted sum of column d of x over row i
    is the running numerator of the whole row divided by its running denominator. -/
theorem y_eq_online (hx : ∀ i k, ∃ r : ℝ, x i k = (r : EReal)) (hq : ∀ a k, ∃ r : ℝ, Wq a k = (r : EReal))
    (hk : ∀ a k, ∃ r : ℝ, Wk a k = (r : EReal)) (i : Fin 8192) (d : Fin 1024) :
    Cert.Spec.y x Wq Wk i d
      = Ideal.div (runNum (sRow x Wq Wk i) (vCol x d) 8192) (runDen (sRow x Wq Wk i) 8192) := by
  rw [softmax_final (sRow x Wq Wk i) (vCol x d) (by omega : 0 < 8192)]
  unfold Cert.Spec.y
  rw [← Fin.sum_univ_eq_sum_range
    (fun j => Ideal.div (Ideal.exp (((sRow x Wq Wk i j : ℝ) : EReal) - runMax (sRow x Wq Wk i) 8192))
      (runDen (sRow x Wq Wk i) 8192) * ((vCol x d j : ℝ) : EReal)) 8192]
  refine Finset.sum_congr rfl fun j _ => ?_
  unfold Cert.Spec.A Cert.Spec.e
  rw [den_eq x Wq Wk hx hq hk i, rowMax_eq x Wq Wk hx hq hk i, logit_eq_sRow x Wq Wk hx hq hk i j,
    x_eq_vCol x hx j d]

end Cert.SpecOnline

end
-- ==== Proof.FiniteInputs.lean ====
import proofs.«159827_j24661702213738_2_alg».proof.Pre_finite_inputs
import proofs.«159827_j24661702213738_2_alg».proof.Proof.Gen.Pre_finite_inputs
import Idealize.ShloMosaic.Lib.ReduceAll
import Idealize.ShloMosaic.Lib.ValueIdx
import Idealize.ShloMosaic.PureOps.Ideal

/-!
# From the precondition to "every input entry is a real number"

The precondition is the conjunction, over the four input arrays, of `all (|a| < +∞)`: an elementwise
comparison of the absolute value against the word of `+∞`, reduced by `and` over both axes from the
constant `1`, the four results joined by `and`. Read at the extended reals, `|a| = max a (-a)` and the word
`0x7F800000` is `⊤`; `max a (-a) < ⊤` excludes `a = ⊤` and `a = ⊥`, so `a` is (the coercion of) a real.
-/

open Idealize.ShloMosaic

namespace Cert.FiniteInputs

open Cert.Pre_finite_inputs

/-- The rank-0 shape has exactly one index. -/
instance subsingleton_S_Idx : Subsingleton S_.Idx := ⟨fun a b => funext fun d => d.elim0⟩

/-- The f32 word `0x7F800000` denotes `+∞`. -/
theorem ofBits_inf : Ideal.ofBits .f32 0x7F800000#32 = (⊤ : EReal) := by
  simp [Ideal.ofBits, Ideal.ieee]

/-- An extended real whose absolute value `max a (-a)` compares below the word of `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- One conjunct of the precondition: if `all (|a| < +∞)` over an array (the comparison against the
    broadcast word of `+∞`, reduced by `and` over a list of axes into the rank-0 shape from the constant `1`)
    is `1`, every entry of the array is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant S_ .f32 0x7F800000#32)))
          (constantI S_ 1 1#1) hr hu ValueIdx.ix0 = 1#1) :
    ∀ i, ∃ r : ℝ, a i = (r : EReal) := by
  intro i
  have e := Host.reduce_andi_all _ _ hr hu _ h i
  exact real_of_abs_lt_inf (a i) e

/-- Under the certificate's precondition, read at the extended reals, every entry of each of the four
    input arrays is a real number. -/
theorem real_of_pre [Cert.Pre_finite_inputs.Facts]
    (x : FVec Ideal S8192x1024 .f32) (Wq Wk Wv : FVec Ideal S1024x1024 .f32)
    (h : Cert.Pre_finite_inputs.fn (F := Ideal) x Wq Wk Wv = fun _ => 1#1) :
    (∀ i, ∃ r : ℝ, x i = (r : EReal)) ∧ (∀ i, ∃ r : ℝ, Wq i = (r : EReal))
      ∧ (∀ i, ∃ r : ℝ, Wk i = (r : EReal)) ∧ (∀ i, ∃ r : ℝ, Wv i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, h1⟩ := IntOp.andi_eq_one.1 h01
  exact ⟨real_of_all x _ _ _ hx, real_of_all Wq _ _ _ h1, real_of_all Wk _ _ _ h2,
    real_of_all Wv _ _ _ h3⟩

end Cert.FiniteInputs
-- ==== Proof.KI.Value.lean ====
/-
  The attention call's output is the attention layer of Spec.lean.

  When the attention call is entered, the buffers it reads hold the activations x, the value weights Wv, and the
  queries and keys, q[i, a] = ∑ k, x[i, k] · Wq[a, k] and k[j, a] = ∑ k, x[j, k] · Wk[a, k]. Its output array is, at
  (i, d'), the sum over d of the numerator accumulated over all 8192 key rows divided by the accumulated denominator,
  times Wv[d', d] — for any real sequences that the scaled logits of row i and the columns of x coincide with.

  Under the precondition every input entry is a real number, so every logit is one: row i of the logits and column d
  of x are the real sequences of SpecOnline.lean, for which the accumulated numerator over the denominator is the
  softmax-weighted mix y[i, d] of the rows of x. Hence the output array is ∑ d, y[i, d] · Wv[d', d], the layer's result.
-/
import proofs.«159827_j24661702213738_2_alg».proof.Defs
import proofs.«159827_j24661702213738_2_alg».proof.Proof.KI.Run
import proofs.«159827_j24661702213738_2_alg».proof.Proof.KI.Inputs
import proofs.«159827_j24661702213738_2_alg».proof.Proof.KI.AttnDefs
import proofs.«159827_j24661702213738_2_alg».proof.Proof.KI.Region1Value
import proofs.«159827_j24661702213738_2_alg».proof.Proof.KI.HostReads
import proofs.«159827_j24661702213738_2_alg».proof.Proof.SpecOnline
import proofs.«159827_j24661702213738_2_alg».proof.Proof.FiniteInputs

noncomputable section

namespace Cert.KernelIdeal.Hand

open Cert.KernelIdeal Cert.KernelIdeal.Gen
open Idealize.ShloMosaic Idealize.ShloMosaic.TcCoe Idealize.SL.Sem Idealize.ShloMosaic.ValueIdx LibOnlineSoftmax

/-- THE KERNEL'S RESULT IS THE SPECIFICATION: under the precondition (every input entry finite), what the attention call
    leaves in its output array is the attention layer's result of the four argument arrays, index by index. -/
theorem value_eq [hP : Cert.Pre_finite_inputs.Facts] (m : (ℓ : Loc nD τ sig) → Buf (Elt Ideal) ℓ)
    (ρ : Dev nD → PrngReg) (hpre : Cert.Pre_KernelIdeal m) (c : Dev nD) :
    (dat1 (F := Ideal) (E3 m ρ) c).arrAt 4 cfg1.N = specOut m c := by
  -- every entry of x, Wq and Wk is a real number
  obtain ⟨hx, hq, hk, _⟩ :=
    Cert.FiniteInputs.real_of_pre (inX m c) (inWq m c) (inWk m c) (inWv m c) (hpre c)
  have hx' : ∀ (i : Fin 8192) (k : Fin 1024), ∃ r : ℝ, inX m c (ix2 i k) = (r : EReal) := fun i k => hx (ix2 i k)
  have hq' : ∀ (a k : Fin 1024), ∃ r : ℝ, inWq m c (ix2 a k) = (r : EReal) := fun a k => hq (ix2 a k)
  have hk' : ∀ (a k : Fin 1024), ∃ r : ℝ, inWk m c (ix2 a k) = (r : EReal) := fun a k => hk (ix2 a k)
  -- the scaled logits of the queries and keys the call reads are row i's real sequence
  have hlog : ∀ (i : Fin 8192) (n : ℕ) (h : n < 8192),
      logitQK (E3 m ρ c main_v5) (E3 m ρ c main_v6) i ⟨n, h⟩
        = ((Cert.SpecOnline.sRow (fun p q => inX m c (ix2 p q)) (fun p q => inWq m c (ix2 p q))
            (fun p q => inWk m c (ix2 p q)) i n : ℝ) : EReal) := by
    intro i n h
    rw [← Cert.SpecOnline.logit_eq_sRow_nat _ _ _ hx' hq' hk' i n h]
    unfold logitQK Cert.Spec.logit Cert.Spec.scale
    refine congrArg (· * Ideal.ofBits .f32 0x3D000000#32) (Finset.sum_congr rfl fun a _ => ?_)
    rw [E3_v5_q m ρ c i a, E3_v6_k m ρ c ⟨n, h⟩ a]
  -- the activations the call reads are column d's real sequence
  have hval : ∀ (d : Fin 1024) (n : ℕ) (h : n < 8192),
      colX (E3 m ρ c main_v0) ⟨n, h⟩ d
        = ((Cert.SpecOnline.vCol (fun p q => inX m c (ix2 p q)) d n : ℝ) : EReal) := by
    intro d n h
    rw [← Cert.SpecOnline.x_eq_vCol_nat _ hx' n h d]
    exact congrFun (E3_v0 m ρ c) _
  rw [arr1_final (E3 m ρ) c _ _ hlog hval]
  funext i
  unfold attnG specOut Cert.Spec.out
  refine Finset.sum_congr rfl fun d _ => ?_
  rw [E3_v3 m ρ c]
  exact congrArg (· * inWv m c (ix2 (i 1) d)) (Cert.SpecOnline.y_eq_online _ _ _ hx' hq' hk' (i 0) d).symm

end Cert.KernelIdeal.Hand

end
-- ==== Proof.RefSide.lean ====
/-
  The reference program's result, at the extended reals, is the attention layer of Spec.lean.

  The reference is a chain of host operations: x · Wqᵀ and x · Wkᵀ (each a transpose and a contraction), their
  product over the feature axis scaled on the right, the row maximum (a maximum-reduction from -inf, then a maximum
  with -inf again), the shifted exponential, the row sum from 0, the quotient, the contraction with x and the
  contraction with Wvᵀ. Each stage is read at an index whose coordinates are literal, outermost operation last, so
  that every stage is the specification's function of the same name at those coordinates.
-/
import proofs.«159827_j24661702213738_2_alg».proof.Proof.Gen.ReferenceIdeal.Run
import proofs.«159827_j24661702213738_2_alg».proof.Proof.Gen.ReferenceIdeal.Read
import proofs.«159827_j24661702213738_2_alg».proof.Proof.Spec
import proofs.«159827_j24661702213738_2_alg».proof.Proof.LibMaxReduce
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The [8192, 1024] array as a function of its two coordinates. -/
abbrev fx (x : FVec Ideal S8192x1024 .f32) : Fin 8192 → Fin 1024 → EReal := fun a b => x (ix2 a b)
/-- A [1024, 1024] array as a function of its two coordinates. -/
abbrev fw (W : FVec Ideal S1024x1024 .f32) : Fin 1024 → Fin 1024 → EReal := fun a b => W (ix2 a b)

/-- Two indices of rank 2 with equal coordinates are equal: both coordinates compute. -/
local macro "idx2" : tactic =>
  `(tactic| exact funext fun d => Fin.ext (by match d with | ⟨0, _⟩ => rfl | ⟨1, _⟩ => rfl))
/-- The same at rank 1. -/
local macro "idx1" : tactic =>
  `(tactic| exact funext fun d => Fin.ext (by match d with | ⟨0, _⟩ => rfl))

variable (x : FVec Ideal S8192x1024 .f32) (Wq Wk Wv : FVec Ideal S1024x1024 .f32)

/-! ## The projections -/

/-- Wqᵀ at (k, a) is Wq at (a, k). -/
theorem v0_at (k a : Fin 1024) : val_main_v0 (F := Ideal) Wq (ix2 k a) = Wq (ix2 a k) := by
  rw [val_main_v0_apply]
  exact congrArg Wq (by idx2)

/-- Wkᵀ at (k, a) is Wk at (a, k). -/
theorem v2_at (k a : Fin 1024) : val_main_v2 (F := Ideal) Wk (ix2 k a) = Wk (ix2 a k) := by
  rw [val_main_v2_apply]
  exact congrArg Wk (by idx2)

/-- Wvᵀ at (d, d') is Wv at (d', d). -/
theorem v20_at (d d' : Fin 1024) : val_main_v20 (F := Ideal) Wv (ix2 d d') = Wv (ix2 d' d) := by
  rw [val_main_v20_apply]
  exact congrArg Wv (by idx2)

/-- x · Wqᵀ at (i, a) is the query entry. -/
theorem v1_at (i : Fin 8192) (a : Fin 1024) :
    val_main_v1 (F := Ideal) x Wq (ix2 i a) = Cert.Spec.q (fx x) (fw Wq) i a := by
  rw [val_main_v1_apply]
  unfold Cert.Spec.q
  refine Finset.sum_congr rfl fun k _ => ?_
  rw [show lidx_main_v1 (ix2 i a) k = ix2 i k from by idx2,
    show ridx_main_v1 (ix2 i a) k = ix2 k a from by idx2, v0_at]

/-- x · Wkᵀ at (j, a) is the key entry. -/
theorem v3_at (j : Fin 8192) (a : Fin 1024) :
    val_main_v3 (F := Ideal) x Wk (ix2 j a) = Cert.Spec.kk (fx x) (fw Wk) j a := by
  rw [val_main_v3_apply]
  unfold Cert.Spec.kk
  refine Finset.sum_congr rfl fun k _ => ?_
  rw [show lidx_main_v3 (ix2 j a) k = ix2 j k from by idx2,
    show ridx_main_v3 (ix2 j a) k = ix2 k a from by idx2, v2_at]

/-- The transposed keys at (a, j) are the key entry (j, a). -/
theorem v4_at (a : Fin 1024) (j : Fin 8192) :
    val_main_v4 (F := Ideal) x Wk (ix2 a j) = Cert.Spec.kk (fx x) (fw Wk) j a := by
  rw [val_main_v4_apply, show idx_main_v4 (ix2 a j) = ix2 j a from by idx2, v3_at]

/-! ## The logits -/

/-- Queries against keys at (i, j): the sum over the feature axis. -/
theorem v5_at (i j : Fin 8192) :
    val_main_v5 (F := Ideal) x Wq Wk (ix2 i j)
      = ∑ a : Fin 1024, Cert.Spec.q (fx x) (fw Wq) i a * Cert.Spec.kk (fx x) (fw Wk) j a := by
  rw [val_main_v5_apply]
  refine Finset.sum_congr rfl fun a _ => ?_
  rw [show lidx_main_v5 (ix2 i j) a = ix2 i a from by idx2,
    show ridx_main_v5 (ix2 i j) a = ix2 a j from by idx2, v1_at, v4_at]

/-- The scaled logits: the scale is the broadcast constant, multiplied on the right. -/
theorem v7_at (i j : Fin 8192) :
    val_main_v7 (F := Ideal) x Wq Wk (ix2 i j) = Cert.Spec.logit (fx x) (fw Wq) (fw Wk) i j := by
  rw [val_main_v7_apply, val_main_v6_apply, val_main_cst_apply, v5_at]
  rfl

/-! ## The softmax row -/

/-- A maximum-reduction of an [8192, 8192] array over its second axis from -inf, at row i: the supremum of the row. -/
theorem rowSup (y : FVec Ideal S8192x8192 .f32) (i : Fin 8192) :
    Host.reduce FloatOps.maximumf y (constant (F := Ideal) S_ .f32 0xFF800000#32) reducesTo_S8192x8192_S8192_d1 h_S_ (ix1 i)
      = ⨆ k : Fin 8192, y (ix2 i k) := by
  rw [Cert.Lib.MaxReduce.hostMaxReduce_single y reducesTo_S8192x8192_S8192_d1 (by decide) h_S_]
  exact iSup_congr fun k => congrArg y (by idx2)

/-- The row maximum of the logits. -/
theorem v8_at (i : Fin 8192) :
    val_main_v8 (F := Ideal) x Wq Wk (ix1 i) = Cert.Spec.rowMax (fx x) (fw Wq) (fw Wk) i := by
  unfold val_main_v8 val_main_cst_0 Cert.Spec.rowMax
  generalize hy : val_main_v7 (F := Ideal) x Wq Wk = y
  rw [rowSup]
  exact iSup_congr fun k => by rw [← hy, v7_at]

/-- The maximum with -inf again changes nothing: -inf is the least extended real. -/
theorem v10_at (i : Fin 8192) :
    val_main_v10 (F := Ideal) x Wq Wk (ix1 i) = Cert.Spec.rowMax (fx x) (fw Wq) (fw Wk) i := by
  rw [val_main_v10_apply, val_main_v9_apply, val_main_cst_1_apply, v8_at, Ideal.ofBits_def,
    Cert.Lib.MaxReduce.ofBits_neg_inf_f32, Ideal.maximumf_def]
  exact max_bot_left _

/-- The row maximum broadcast along the row. -/
theorem v12_at (i j : Fin 8192) :
    val_main_v12 (F := Ideal) x Wq Wk (ix2 i j) = Cert.Spec.rowMax (fx x) (fw Wq) (fw Wk) i := by
  rw [val_main_v12_apply, val_main_v11_apply,
    show idx_main_v11 (idx_main_v12 (ix2 i j)) = ix1 i from by idx1, v10_at]

/-- The shifted exponential. -/
theorem v14_at (i j : Fin 8192) :
    val_main_v14 (F := Ideal) x Wq Wk (ix2 i j) = Cert.Spec.e (fx x) (fw Wq) (fw Wk) i j := by
  rw [val_main_v14_apply, val_main_v13_apply, v7_at, v12_at]
  rfl

/-- The row sum from 0: the denominator. -/
theorem v15_at (i : Fin 8192) :
    val_main_v15 (F := Ideal) x Wq Wk (ix1 i) = Cert.Spec.den (fx x) (fw Wq) (fw Wk) i := by
  rw [val_main_v15_apply, val_main_cst_2_apply, Ideal.ofBits_def, Ideal.ofBits_zero_f32, zero_add]
  unfold Cert.Spec.den
  refine Finset.sum_congr rfl fun k _ => ?_
  rw [show idx_main_v15 (ix1 i) k = ix2 i k from by idx2, v14_at]

/-- The denominator broadcast along the row. -/
theorem v17_at (i j : Fin 8192) :
    val_main_v17 (F := Ideal) x Wq Wk (ix2 i j) = Cert.Spec.den (fx x) (fw Wq) (fw Wk) i := by
  rw [val_main_v17_apply, val_main_v16_apply,
    show idx_main_v16 (idx_main_v17 (ix2 i j)) = ix1 i from by idx1, v15_at]

/-- The softmax weight. -/
theorem v18_at (i j : Fin 8192) :
    val_main_v18 (F := Ideal) x Wq Wk (ix2 i j) = Cert.Spec.A (fx x) (fw Wq) (fw Wk) i j := by
  rw [val_main_v18_apply, v14_at, v17_at]
  rfl

/-! ## Mixing, then the value projection -/

/-- The softmax weights against the rows of x. -/
theorem v19_at (i : Fin 8192) (d : Fin 1024) :
    val_main_v19 (F := Ideal) x Wq Wk (ix2 i d) = Cert.Spec.y (fx x) (fw Wq) (fw Wk) i d := by
  rw [val_main_v19_apply]
  unfold Cert.Spec.y
  refine Finset.sum_congr rfl fun j _ => ?_
  rw [show lidx_main_v19 (ix2 i d) j = ix2 i j from by idx2,
    show ridx_main_v19 (ix2 i d) j = ix2 j d from by idx2, v18_at]

/-- The mixed rows against Wvᵀ: the result. -/
theorem v21_at (i : Fin 8192) (d' : Fin 1024) :
    val_main_v21 (F := Ideal) x Wq Wk Wv (ix2 i d') = Cert.Spec.out (fx x) (fw Wq) (fw Wk) (fw Wv) i d' := by
  rw [val_main_v21_apply]
  unfold Cert.Spec.out
  refine Finset.sum_congr rfl fun d _ => ?_
  rw [show lidx_main_v21 (ix2 i d') d = ix2 i d from by idx2,
    show ridx_main_v21 (ix2 i d') d = ix2 d d' from by idx2, v19_at, v20_at]

/-- THE REFERENCE IS THE SPECIFICATION: the last stage of the reference, as a function of the four argument arrays,
    is the attention layer's result at each index's two coordinates. -/
theorem result_eq (x : FVec Ideal S8192x1024 .f32) (Wq Wk Wv : FVec Ideal S1024x1024 .f32) :
    val_main_v21 (F := Ideal) x Wq Wk Wv
      = fun i => Cert.Spec.out (fun a b => x (ValueIdx.ix2 a b)) (fun a b => Wq (ValueIdx.ix2 a b))
          (fun a b => Wk (ValueIdx.ix2 a b)) (fun a b => Wv (ValueIdx.ix2 a b)) (i 0) (i 1) := by
  funext i
  obtain ⟨a, b, rfl⟩ : ∃ (a : Fin 8192) (b : Fin 1024), i = ix2 a b := ⟨i 0, i 1, eq_ix2 i⟩
  exact v21_at x Wq Wk Wv a b

end Cert.ReferenceIdeal.RefValue

end
-- ==== Proof.lean ====
/-
  Flash attention against the one-shot softmax reference.

  The kernel program projects x : [8192, 1024] to queries and keys with one matrix product (Wq and Wk stacked),
  then, for each tile of 1024 query rows, streams over 16 tiles of 512 key rows: the scaled logits of the tile,
  the running row maximum, the running softmax denominator and the running softmax-weighted sum of the rows of x,
  each rescaled by the exponential of the old maximum minus the new one; at the last key tile the accumulated sum is
  divided by the denominator and multiplied by Wvᵀ. The reference computes the logits of all 8192 × 8192 pairs at
  once, takes the softmax of each row, mixes the rows of x and applies Wvᵀ.

  Read at the extended reals, where every float operation is exact and a change of format is the identity, both are

      out = (softmax ((x Wqᵀ) (x Wkᵀ)ᵀ · (1/32)) · x) · Wvᵀ,

  the function `Cert.Spec.out` of the four argument arrays. The reference is that function stage by stage; the
  kernel is that function because, for finite inputs, the streaming recurrence over a row equals the one-shot
  softmax of the row (the exponential of a sum is the product of exponentials, and division by the positive real
  denominator distributes over the finite sum). The word-level kernel program and its reading at the extended reals
  have the same text, so nothing is to be preserved between them; each of the three programs terminates without a
  fault and leaves its argument arrays as launched.
-/
import proofs.«159827_j24661702213738_2_alg».proof.Defs
import proofs.«159827_j24661702213738_2_alg».proof.Proof.Gen.Kernel
import proofs.«159827_j24661702213738_2_alg».proof.Proof.Gen.KernelIdeal
import proofs.«159827_j24661702213738_2_alg».proof.Proof.Gen.ReferenceIdeal
import proofs.«159827_j24661702213738_2_alg».proof.Proof.Gen.Pre_finite_inputs
import proofs.«159827_j24661702213738_2_alg».proof.Proof.K.Run
import proofs.«159827_j24661702213738_2_alg».proof.Proof.KI.Run
import proofs.«159827_j24661702213738_2_alg».proof.Proof.KI.Inputs
import proofs.«159827_j24661702213738_2_alg».proof.Proof.KI.Value
import proofs.«159827_j24661702213738_2_alg».proof.Proof.RefSide

noncomputable section

namespace Cert.Proof

open Idealize.ShloMosaic Idealize.ShloMosaic.TcCoe Idealize.SL.Sem

/-- The word-level kernel program terminates without a fault and leaves its four argument arrays as launched. -/
theorem frame_kernel : Cert.frame_Kernel := fun m ρ _ => Cert.Kernel.Hand.frame (F := Bits) m ρ

/-- So does the kernel program read at the extended reals. -/
theorem frame_kernelIdeal : Cert.frame_KernelIdeal := fun m ρ _ => Cert.KernelIdeal.Hand.frame (F := Ideal) m ρ

/-- The reference has no kernel call: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at the extended reals: nothing is to be preserved. -/
theorem preserves : Cert.preserves_Kernel_KernelIdeal := trivial

/-- From memories that agree on the four arguments, both programs end with the attention layer's result
    `Cert.Spec.out` of those arguments, index by index: the kernel's output array by the streaming recurrence over
    each row (finite inputs), the reference's last stage by reading its operations one at a time. -/
theorem algebraic : Cert.algebraic_KernelIdeal_ReferenceIdeal := by
  intro m ρ m' ρ' hpre hagree
  refine ⟨fun c => Cert.KernelIdeal.Hand.specOut m c, ?_, ?_⟩
  · exact (θ_run Cert.KernelIdeal.defs _ _).mono
      (fun _ h c => ⟨(h c).1.trans
        (Cert.KernelIdeal.Hand.value_eq (hP := Cert.Pre_finite_inputs.Gen.facts) m ρ hpre c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.ReferenceIdeal.RefValue.result_eq,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
